-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x3x8192 : Shape := ⟨3, ![2, 3, 8192]⟩
abbrev S2x8192 : Shape := ⟨2, ![2, 8192]⟩
abbrev S16x2x8192 : Shape := ⟨3, ![16, 2, 8192]⟩
abbrev S2x3x512 : Shape := ⟨3, ![2, 3, 512]⟩
abbrev S2x3x2048 : Shape := ⟨3, ![2, 3, 2048]⟩
abbrev S2x512 : Shape := ⟨2, ![2, 512]⟩
abbrev S1x2x8192 : Shape := ⟨3, ![1, 2, 8192]⟩
abbrev S2x1x512 : Shape := ⟨3, ![2, 1, 512]⟩
abbrev S2x512x1 : Shape := ⟨3, ![2, 512, 1]⟩
abbrev S2x1x2048 : Shape := ⟨3, ![2, 1, 2048]⟩
abbrev S2x2048 : Shape := ⟨2, ![2, 2048]⟩
abbrev S2x512x2048 : Shape := ⟨3, ![2, 512, 2048]⟩
abbrev S_ : Shape := ⟨0, ![]⟩
abbrev S2 : Shape := ⟨1, ![2]⟩

abbrev nBuf : Space → Nat
  | .hbm => 25
  | .vmem => 10
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x3x8192, .f32⟩
  | .hbm, ⟨3, _⟩ => ⟨S2x3x8192, .f32⟩
  | .hbm, ⟨4, _⟩ => ⟨S2x8192, .f32⟩
  | .hbm, ⟨5, _⟩ => ⟨S16x2x8192, .f32⟩
  | .hbm, ⟨6, _⟩ => ⟨S_, .f32⟩
  | .hbm, ⟨7, _⟩ => ⟨S2x8192, .f32⟩
  | .hbm, ⟨8, _⟩ => ⟨S_, .f32⟩
  | .hbm, ⟨9, _⟩ => ⟨S2, .f32⟩
  | .hbm, ⟨10, _⟩ => ⟨S_, .f32⟩
  | .hbm, ⟨11, _⟩ => ⟨S2, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S_, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2x3x512, .f32⟩
  | .local _ .vmem, ⟨1, _⟩ => ⟨S2x3x512, .f32⟩
  | .local _ .vmem, ⟨2, _⟩ => ⟨S2x3x2048, .f32⟩
  | .local _ .vmem, ⟨3, _⟩ => ⟨S2x3x2048, .f32⟩
  | .local _ .vmem, ⟨4, _⟩ => ⟨S2x512, .f32⟩
  | .local _ .vmem, ⟨5, _⟩ => ⟨S2x512, .f32⟩
  | .local _ .vmem, ⟨6, _⟩ => ⟨S1x2x8192, .f32⟩
  | .local _ .vmem, ⟨7, _⟩ => ⟨S1x2x8192, .f32⟩
  | .local _ .vmem, ⟨8, _⟩ => ⟨S2x512, .f32⟩
  | .local _ .vmem, ⟨9, _⟩ => ⟨S2x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v46 : BitVec 32 := Scalar.muli arg1 c2048_i32
  v46
def k0_off1 (i : grid0.Coords) : Fin 2 → Nat :=
  let c0_11 : Index := 0#32
  let arg1 : BitVec 32 := BitVec.ofNat 32 (i 1).val
  let c2048_i32 : BitVec 32 := 2048#32
  let v46 : BitVec 32 := Scalar.muli arg1 c2048_i32
  let v47 : BitVec 32 := v46
  let v48 : Index := Scalar.indexCast v47
  ![0, v48.toNat]
def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_13 : BitVec 32 := 0#32
  let v57 : BitVec 1 := Scalar.cmpi .ne v56 c0_i32_13
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S2x8192x3_S2x3x8192_0_2_1 : S2x8192x3.Transposes [0, 2, 1] S2x3x8192
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S2x3x512_S2x3x512_0_0_0 : ∀ a, (![0, 0, 0] : Fin 3 → Nat) a + S2x3x512.size a ≤ S2x3x512.size a
  h_S2x3x512 : 0 < S2x3x512.numel
  shapeCasts_S2x3x512_S2x3x512 : S2x3x512.ShapeCasts S2x3x512
  inb_S2x3x2048_S2x3x2048_0_0_0 : ∀ a, (![0, 0, 0] : Fin 3 → Nat) a + S2x3x2048.size a ≤ S2x3x2048.size a
  h_S2x3x2048 : 0 < S2x3x2048.numel
  shapeCasts_S2x3x2048_S2x3x2048 : S2x3x2048.ShapeCasts S2x3x2048
  slices_S2x3x512_o0_0_0_S2x1x512 : S2x3x512.Slices ![0, 0, 0] S2x1x512
  shapeCasts_S2x1x512_S2x512 : S2x1x512.ShapeCasts S2x512
  shapeCasts_S2x512_S2x512x1 : S2x512.ShapeCasts S2x512x1
  slices_S2x3x2048_o0_0_0_S2x1x2048 : S2x3x2048.Slices ![0, 0, 0] S2x1x2048
  shapeCasts_S2x1x2048_S2x2048 : S2x1x2048.ShapeCasts S2x2048
  shapeCasts_S2x2048_S2x1x2048 : S2x2048.ShapeCasts S2x1x2048
  broadcasts_S2x512x1_S2x512x2048 : S2x512x1.Broadcasts S2x512x2048
  broadcasts_S2x1x2048_S2x512x2048 : S2x1x2048.Broadcasts S2x512x2048
  slices_S2x3x512_o0_1_0_S2x1x512 : S2x3x512.Slices ![0, 1, 0] S2x1x512
  slices_S2x3x2048_o0_1_0_S2x1x2048 : S2x3x2048.Slices ![0, 1, 0] S2x1x2048
  slices_S2x3x512_o0_2_0_S2x1x512 : S2x3x512.Slices ![0, 2, 0] S2x1x512
  slices_S2x3x2048_o0_2_0_S2x1x2048 : S2x3x2048.Slices ![0, 2, 0] S2x1x2048
  reduces_S2x512x2048_S2x512 : S2x512x2048.Reduces [2] S2x512
  reduces_S2x512x2048_S2x2048 : S2x512x2048.Reduces [1] S2x2048
  h_S2x2048 : 0 < S2x2048.numel
  shapeCasts_S2x2048_S2x2048 : S2x2048.ShapeCasts S2x2048
  inb_S1x2x8192_S1x2x8192_0_0_0 : ∀ a, (![0, 0, 0] : Fin 3 → Nat) a + S1x2x8192.size a ≤ S1x2x8192.size a
  h_S1x2x8192 : 0 < S1x2x8192.numel
  shapeCasts_S1x2x8192_S2x8192 : S1x2x8192.ShapeCasts S2x8192
  shapeCasts_S2x8192_S1x2x8192 : S2x8192.ShapeCasts S1x2x8192
  reducesTo_S16x2x8192_S2x8192_d0 : S16x2x8192.ReducesTo [0] S2x8192
  h_S_ : 0 < S_.numel
  reducesTo_S2x8192_S2_d1 : S2x8192.ReducesTo [1] S2
  bcast_S_S2 : S_.BroadcastsInDim S2 (![] : Fin 0 → Fin S2.rank)
  reducesTo_S2_S_d0 : S2.ReducesTo [0] S_
  hrank0 : 0 < grid0.rank
  k0_mult1_dvd : ∀ i : grid0.Coords, 2048 ∣ (k0_mult1 i).toNat
  k0_off1_inb : ∀ i : grid0.Coords, ∀ a, (k0_off1 i) a + S2x2048.size a ≤ S2x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512.size a ≤ S2x3x8192.size a
  hwx0_0 : ∀ i : grid0.Coords, EltTy.bits .f32 = 32 ∨ (Rect.block (s := S2x3x8192) S2x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3x2048.size a ≤ S2x3x8192.size a
  hwx0_1 : ∀ i : grid0.Coords, EltTy.bits .f32 = 32 ∨ (Rect.block (s := S2x3x8192) S2x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x8192.size a
  hwx0_2 : ∀ i : grid0.Coords, EltTy.bits .f32 = 32 ∨ (Rect.block (s := S2x8192) S2x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x8192.size a ≤ S16x2x8192.size a
  hwx0_3 : ∀ i : grid0.Coords, EltTy.bits .f32 = 32 ∨ (Rect.block (s := S16x2x8192) S1x2x8192.size (cc0_transform_3 i) (hinb0_3 i)).WholeWords (EltTy.packing .f32)

variable [Facts₀]

abbrev win0_0 : Pipeline.Window sig grid0 :=
  Pipeline.Window.ofSpec (Memref.whole main_v0) S2x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2 : Shape := ⟨1, ![2]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S_, .f32⟩
  | .hbm, ⟨3, _⟩ => ⟨S2x8192x3, .f32⟩
  | .hbm, ⟨4, _⟩ => ⟨S2x8192x3, .f32⟩
  | .hbm, ⟨5, _⟩ => ⟨S_, .f32⟩
  | .hbm, ⟨6, _⟩ => ⟨S2x8192x3, .f32⟩
  | .hbm, ⟨7, _⟩ => ⟨S2x8192x3, .f32⟩
  | .hbm, ⟨8, _⟩ => ⟨S2x8192x3, .f32⟩
  | .hbm, ⟨9, _⟩ => ⟨S_, .f32⟩
  | .hbm, ⟨10, _⟩ => ⟨S2x8192, .f32⟩
  | .hbm, ⟨11, _⟩ => ⟨S2x8192x3, .f32⟩
  | .hbm, ⟨12, _⟩ => ⟨S_, .f32⟩
  | .hbm, ⟨13, _⟩ => ⟨S2x8192, .f32⟩
  | .hbm, ⟨14, _⟩ => ⟨S2x8192x8192, .f32⟩
  | .hbm, ⟨15, _⟩ => ⟨S2x8192x1, .f32⟩
  | .hbm, ⟨16, _⟩ => ⟨S2x1x8192, .f32⟩
  | .hbm, ⟨17, _⟩ => ⟨S2x8192x8192, .f32⟩
  | .hbm, ⟨18, _⟩ => ⟨S2x8192x8192, .f32⟩
  | .hbm, ⟨19, _⟩ => ⟨S2x8192x8192, .f32⟩
  | .hbm, ⟨20, _⟩ => ⟨S_, .f32⟩
  | .hbm, ⟨21, _⟩ => ⟨S2x8192x8192, .f32⟩
  | .hbm, ⟨22, _⟩ => ⟨S2x8192x8192, .f32⟩
  | .hbm, ⟨23, _⟩ => ⟨S2x8192x8192, .f32⟩
  | .hbm, ⟨24, _⟩ => ⟨S_, .f32⟩
  | .hbm, ⟨25, _⟩ => ⟨S2x8192x8192, .f32⟩
  | .hbm, ⟨26, _⟩ => ⟨S2x8192x8192, .f32⟩
  | .hbm, ⟨27, _⟩ => ⟨S_, .f32⟩
  | .hbm, ⟨28, _⟩ => ⟨S2x8192, .f32⟩
  | .hbm, ⟨29, _⟩ => ⟨S_, .f32⟩
  | .hbm, ⟨30, _⟩ => ⟨S2x8192, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S_, .f32⟩
  | .hbm, ⟨37, _⟩ => ⟨S2, .f32⟩
  | .hbm, ⟨38, _⟩ => ⟨S_, .f32⟩
  | .hbm, ⟨39, _⟩ => ⟨S2, .f32⟩
  | .hbm, ⟨40, _⟩ => ⟨S2, .f32⟩
  | .hbm, ⟨41, _⟩ => ⟨S2, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_cst_12 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S2x8192x3 : S_.BroadcastsInDim S2x8192x3 (![] : Fin 0 → Fin S2x8192x3.rank)
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  reducesTo_S2_S_d0 : S2.ReducesTo [0] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Found.lean ====
/-
  What each control case of the kernel body leaves behind, as terms over the body's arithmetic.

  The body keeps two accumulators between grid points: `arg6` [2, 512], the running minimum along the key axis for the 512
  query points of the current row tile, and `arg7` [2, 8192], the running minimum along the query axis, of which one point
  updates the 2048 columns of its own key tile.  At the first key tile both are reset to +∞ before the update; at the last
  key tile both are copied to the output blocks after it.  Each lemma below says what one of the three cases leaves in one
  buffer: the accumulators' update terms `k0_pay7` / `k0_pay2` of the distance tile `k0_pay6`, applied to what the buffer
  held (the reset value in the first case).  For `arg7` the statement is entry by entry: inside the point's 2048 columns the
  update of the old columns, outside them the old entry.  All of this holds for any float instance.
-/
import proofs.«122902_j84043920048708_2_alg».proof.Proof.Gen.KernelIdeal.Frame
import Idealize.ShloMosaic.Lib.Pipeline.Value
import Idealize.ShloMosaic.Lib.WritesUnit
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 2048 columns of the column accumulator that the point with coordinates `i` reads and overwrites. -/
abbrev cols (i : grid0.Coords) : Rect S2x8192 := Rect.unit (k0_off1 i) S2x2048.size (k0_off1_inb i)

/-- The row accumulator's update: the old value against the row minima of the distance tile. -/
abbrev rowUpd (x0 : Vec F S2x3x512 .f32) (x1 : Vec F S2x3x2048 .f32) (old : Vec F S2x512 .f32) : Vec F S2x512 .f32 := k0_pay1 (k0_pay7 x0 x1 old)

/-- The column accumulator's update on the point's columns: the old columns against the column minima of the tile. -/
abbrev colUpd (i : grid0.Coords) (x0 : Vec F S2x3x512 .f32) (x1 : Vec F S2x3x2048 .f32) (old : Vec F S2x8192 .f32) : Vec F S2x2048 .f32 :=
  k0_pay2 (k0_pay6 x0 x1) (View.ld old (cols i))

/-! ## The row accumulator -/

/-- First key tile: reset to +∞, then updated. -/
theorem rowA (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : cond0_0 i) (hc1 : ¬cond0_1 i) (x0 : Vec F S2x3x512 .f32) (x1 : Vec F S2x3x2048 .f32) :
    sout0_A_0 c i arg2 harg2 arg3 harg3 arg4 harg4 arg5 harg5 arg6 harg6 arg7 harg7 hc0 hc1 x0 x1 = rowUpd x0 x1 (k0_pay4 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S2x512) hz2, View.readCov_unit_zero (S := S2x512) _ hz2]
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]

/-- A middle key tile: updated over what the point before left. -/
theorem rowB (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : ¬cond0_1 i) (x0 : Vec F S2x3x512 .f32) (x1 : Vec F S2x3x2048 .f32) (xs0 : Vec F S2x512 .f32) (xs1 : Vec F S2x8192 .f32) :
    sout0_B_0 c i arg2 harg2 arg3 harg3 arg4 harg4 arg5 harg5 arg6 harg6 arg7 harg7 hc0 hc1 x0 x1 xs0 xs1 = rowUpd x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S2x512) hz2]
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]

/-- The last key tile: the same update. -/
theorem rowC (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : cond0_1 i) (x0 : Vec F S2x3x512 .f32) (x1 : Vec F S2x3x2048 .f32) (xs0 : Vec F S2x512 .f32) (xs1 : Vec F S2x8192 .f32) :
    sout0_C_0 c i arg2 harg2 arg3 harg3 arg4 harg4 arg5 harg5 arg6 harg6 arg7 harg7 hc0 hc1 x0 x1 xs0 xs1 = rowUpd x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S2x512) hz2]
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]

/-- The last key tile copies the updated row accumulator to the first output's block. -/
theorem outRowC (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : cond0_1 i) (x0 : Vec F S2x3x512 .f32) (x1 : Vec F S2x3x2048 .f32) (xs0 : Vec F S2x512 .f32) (xs1 : Vec F S2x8192 .f32) :
    out0_C_2 c i arg2 harg2 arg3 harg3 arg4 harg4 arg5 harg5 arg6 harg6 arg7 harg7 hc0 hc1 x0 x1 xs0 xs1 = rowUpd x0 x1 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S2x512) hz2, View.readCov_unit_zero (S := S2x512) _ hz2]
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]

/-! ## The column accumulator -/

/-- A middle key tile, inside the point's columns: the update of the old columns. -/
theorem colB_in (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : ¬cond0_1 i) (x0 : Vec F S2x3x512 .f32) (x1 : Vec F S2x3x2048 .f32) (xs0 : Vec F S2x512 .f32) (xs1 : Vec F S2x8192 .f32)
    (y : S2x8192.Idx) (x : S2x2048.Idx) (hx : ∀ a, (y a).val = (![0, 2048 * (i 1).val] : Fin 2 → ℕ) a + (x a).val) :
    sout0_B_1 c i arg2 harg2 arg3 harg3 arg4 harg4 arg5 harg5 arg6 harg6 arg7 harg7 hc0 hc1 x0 x1 xs0 xs1 y = colUpd i x0 x1 xs1 x := by
  unfold sout0_B_1
  unfold kernelRun0_B
  dsimp only
  sl_unfold_words
  refine (View.read_writes_cons_unit_of_mem _ _ _ _ _ y x (k0_off1_eq i) hx).trans ?_
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]
  rfl

/-- A middle key tile, outside the point's columns: the old entry. -/
theorem colB_out (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : ¬cond0_1 i) (x0 : Vec F S2x3x512 .f32) (x1 : Vec F S2x3x2048 .f32) (xs0 : Vec F S2x512 .f32) (xs1 : Vec F S2x8192 .f32)
    (y : S2x8192.Idx) (hy : (y 1).val < 2048 * (i 1).val ∨ 2048 * (i 1).val + 2048 ≤ (y 1).val) :
    sout0_B_1 c i arg2 harg2 arg3 harg3 arg4 harg4 arg5 harg5 arg6 harg6 arg7 harg7 hc0 hc1 x0 x1 xs0 xs1 y = xs1 y := by
  unfold sout0_B_1
  unfold kernelRun0_B
  dsimp only
  sl_unfold_words
  refine (View.read_writes_cons_unit_of_not_mem _ _ _ _ _ y (k0_off1_eq i) 1 (by exact hy)).trans ?_
  rw [View.writes_nil, harg7.read_unread]

/-- The last key tile, inside the point's columns. -/
theorem colC_in (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : cond0_1 i) (x0 : Vec F S2x3x512 .f32) (x1 : Vec F S2x3x2048 .f32) (xs0 : Vec F S2x512 .f32) (xs1 : Vec F S2x8192 .f32)
    (y : S2x8192.Idx) (x : S2x2048.Idx) (hx : ∀ a, (y a).val = (![0, 2048 * (i 1).val] : Fin 2 → ℕ) a + (x a).val) :
    sout0_C_1 c i arg2 harg2 arg3 harg3 arg4 harg4 arg5 harg5 arg6 harg6 arg7 harg7 hc0 hc1 x0 x1 xs0 xs1 y = colUpd i x0 x1 xs1 x := by
  unfold sout0_C_1
  unfold kernelRun0_C
  dsimp only
  sl_unfold_words
  refine (View.read_writes_cons_unit_of_mem _ _ _ _ _ y x (k0_off1_eq i) hx).trans ?_
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]
  rfl

/-- The last key tile, outside the point's columns. -/
theorem colC_out (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : cond0_1 i) (x0 : Vec F S2x3x512 .f32) (x1 : Vec F S2x3x2048 .f32) (xs0 : Vec F S2x512 .f32) (xs1 : Vec F S2x8192 .f32)
    (y : S2x8192.Idx) (hy : (y 1).val < 2048 * (i 1).val ∨ 2048 * (i 1).val + 2048 ≤ (y 1).val) :
    sout0_C_1 c i arg2 harg2 arg3 harg3 arg4 harg4 arg5 harg5 arg6 harg6 arg7 harg7 hc0 hc1 x0 x1 xs0 xs1 y = xs1 y := by
  unfold sout0_C_1
  unfold kernelRun0_C
  dsimp only
  sl_unfold_words
  refine (View.read_writes_cons_unit_of_not_mem _ _ _ _ _ y (k0_off1_eq i) 1 (by exact hy)).trans ?_
  rw [View.writes_nil, harg7.read_unread]

/-- The last key tile copies the updated column accumulator, laid as [1, 2, 8192], to the second output's block. -/
theorem outColC (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : ¬cond0_0 i) (hc1 : cond0_1 i) (x0 : Vec F S2x3x512 .f32) (x1 : Vec F S2x3x2048 .f32) (xs0 : Vec F S2x512 .f32) (xs1 : Vec F S2x8192 .f32) :
    out0_C_3 c i arg2 harg2 arg3 harg3 arg4 harg4 arg5 harg5 arg6 harg6 arg7 harg7 hc0 hc1 x0 x1 xs0 xs1 = k0_pay3 (sout0_C_1 c i arg2 harg2 arg3 harg3 arg4 harg4 arg5 harg5 arg6 harg6 arg7 harg7 hc0 hc1 x0 x1 xs0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold sout0_C_1
  unfold kernelRun0_C
  dsimp only
  sl_unfold_words
  rw [View.canon_unit_zero (S := S1x2x8192) hz3]
  simp only [View.readAt_eq_ld, View.ld_unit_zero (S := S2x8192) hz2]

/-- The reset value of the column accumulator read back after the reset store. -/
theorem read_reset (v : View sig .tc .vmem S2x8192 .f32) (f : v.ty.Contents (Elt F)) :
    v.read (Elt F) (v.writes (Elt F) f [⟨Rect.unit ![0, 0] S2x8192.size inb_S2x8192_S2x8192_0_0, k0_pay5 (F := F)⟩]) = k0_pay5 (F := F) := by
  rw [View.read_writes_eq_canon _ _ _ (fun y => ⟨_, List.mem_singleton_self _, View.mem_set_unit_zero hz2 inb_S2x8192_S2x8192_0_0 y⟩),
    View.canon_unit_zero (S := S2x8192) hz2]

/-- First key tile, inside the point's columns: the update of the reset value. -/
theorem colA_in (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : cond0_0 i) (hc1 : ¬cond0_1 i) (x0 : Vec F S2x3x512 .f32) (x1 : Vec F S2x3x2048 .f32)
    (y : S2x8192.Idx) (x : S2x2048.Idx) (hx : ∀ a, (y a).val = (![0, 2048 * (i 1).val] : Fin 2 → ℕ) a + (x a).val) :
    sout0_A_1 c i arg2 harg2 arg3 harg3 arg4 harg4 arg5 harg5 arg6 harg6 arg7 harg7 hc0 hc1 x0 x1 y = colUpd i x0 x1 (k0_pay5 (F := F)) x := by
  unfold sout0_A_1
  unfold kernelRun0_A
  dsimp only
  sl_unfold_words
  refine (View.read_writes_cons_unit_of_mem _ _ _ _ _ y x (k0_off1_eq i) hx).trans ?_
  simp only [View.readAt_eq_ld, harg2.read_unread, harg3.read_unread, harg6.read_unread, harg7.read_unread, View.ld_unit_zero (S := S2x512) hz2, View.ld_unit_zero (S := S2x8192) hz2, View.ld_unit_zero (S := S2x3x512) hz3, View.ld_unit_zero (S := S2x3x2048) hz3]
  rw [read_reset]
  rfl

/-- First key tile, outside the point's columns: the reset value. -/
theorem colA_out (c : Dev nD) (i : grid0.Coords) (arg2 : Memref sig .tc .vmem S2x3x512 .f32) (harg2 : arg2.IsWhole) (arg3 : Memref sig .tc .vmem S2x3x2048 .f32) (harg3 : arg3.IsWhole) (arg4 : Memref sig .tc .vmem S2x512 .f32) (harg4 : arg4.IsWhole) (arg5 : Memref sig .tc .vmem S1x2x8192 .f32) (harg5 : arg5.IsWhole) (arg6 : Memref sig .tc .vmem S2x512 .f32) (harg6 : arg6.IsWhole) (arg7 : Memref sig .tc .vmem S2x8192 .f32) (harg7 : arg7.IsWhole) (hc0 : cond0_0 i) (hc1 : ¬cond0_1 i) (x0 : Vec F S2x3x512 .f32) (x1 : Vec F S2x3x2048 .f32)
    (y : S2x8192.Idx) (hy : (y 1).val < 2048 * (i 1).val ∨ 2048 * (i 1).val + 2048 ≤ (y 1).val) :
    sout0_A_1 c i arg2 harg2 arg3 harg3 arg4 harg4 arg5 harg5 arg6 harg6 arg7 harg7 hc0 hc1 x0 x1 y = k0_pay5 (F := F) y := by
  unfold sout0_A_1
  unfold kernelRun0_A
  dsimp only
  sl_unfold_words
  refine (View.read_writes_cons_unit_of_not_mem _ _ _ _ _ y (k0_off1_eq i) 1 (by exact hy)).trans ?_
  rw [read_reset]

end Cert.KernelIdeal.Found

end
-- ==== Proof.LibMinFold.lean ====
/-
  Minimum-reductions and two keepdims layout forms, read at an index, for any extents.

  At the exact (extended-real) reading of floats, a `vector.multi_reduction <minimumf>` over ONE axis is, at each result
  index, the fold of `min` from the accumulator's value over that axis's coordinates; for an [R, C] matrix this is the
  fold down a column (axis 0) or along a row (axis 1) of the entries named by their two coordinates. The host's
  one-operand reduce with a minimum body over one axis of a rank-3 array reads the same way. Also: a vector [a] laid
  as a column [a, 1], and a column [a, 1] repeated along the lanes to [a, b], read at an entry.
-/
import Idealize.ShloMosaic.PureOps.Ideal.Laws
import Idealize.ShloMosaic.Lib.ValueIdx
import Idealize.ShloMosaic.Lib.Pipeline.Value

noncomputable section

namespace Cert.LibMinFold

open Idealize.ShloMosaic Idealize.ShloMosaic.ValueIdx

/-- A float `vector.multi_reduction <minimumf>` over one axis, read exactly: the fold of `min` from the accumulator's
    value over that axis's coordinates (the result index with the coordinate put back on the reduced axis). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Down the rows of an [R, C] matrix: at column `n`, the fold of `min` over the row coordinate. -/
theorem colMin_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.minimumf.neutral .f32 hφ) (n : Fin C) :
    multiReduction .minimumf [0] ⟨1, ![C]⟩ src acc h hφ hacc (ix1 n)
      = (Finset.univ : Finset (Fin R)).fold min (Ideal.ofBits .f32 acc) (fun r => src (ix2 r n)) :=
  (multiReduction_minimumf_single src acc h hφ hacc (ix1 n)).trans (by
    show (Finset.univ : Finset (Fin R)).fold min _ _ = _
    congr 1
    funext r
    show src (h.lift (ix1 n) r) = src (ix2 r n)
    congr 1
    funext ax
    apply Fin.ext
    match ax with
    | ⟨0, _⟩ => rfl
    | ⟨1, _⟩ => rfl)

/-- Along the lanes of an [R, C] matrix: at row `p`, the fold of `min` over the column coordinate. -/
theorem rowMin_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ src acc h hφ hacc (ix1 p)
      = (Finset.univ : Finset (Fin C)).fold min (Ideal.ofBits .f32 acc) (fun k => src (ix2 p k)) :=
  (multiReduction_minimumf_single src acc h hφ hacc (ix1 p)).trans (by
    show (Finset.univ : Finset (Fin C)).fold min _ _ = _
    congr 1
    funext k
    show src (h.lift (ix1 p) k) = src (ix2 p k)
    congr 1
    funext ax
    apply Fin.ext
    match ax with
    | ⟨0, _⟩ => rfl
    | ⟨1, _⟩ => rfl)

/-- Down the rows of an [R, C] matrix, a `vector.multi_reduction <add>` at column `n`: the sum over the row coordinate. -/
theorem colAdd_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.add.neutral .f32 hφ) (n : Fin C) :
    multiReduction .add [0] ⟨1, ![C]⟩ src acc h hφ hacc (ix1 n) = ∑ r : Fin R, src (ix2 r n) :=
  (Ideal.multiReduction_add_single src acc h hφ hacc (ix1 n)).trans (by
    show ∑ r : Fin R, src (h.lift (ix1 n) r) = _
    refine Finset.sum_congr rfl fun r _ => ?_
    congr 1
    funext ax
    apply Fin.ext
    match ax with
    | ⟨0, _⟩ => rfl
    | ⟨1, _⟩ => rfl)

/-- Along the lanes of an [R, C] matrix, a `vector.multi_reduction <add>` at row `p`: the sum over the column coordinate. -/
theorem rowAdd_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ src acc h hφ hacc (ix1 p) = ∑ k : Fin C, src (ix2 p k) :=
  (Ideal.multiReduction_add_single src acc h hφ hacc (ix1 p)).trans (by
    show ∑ k : Fin C, src (h.lift (ix1 p) k) = _
    refine Finset.sum_congr rfl fun k _ => ?_
    congr 1
    funext ax
    apply Fin.ext
    match ax with
    | ⟨0, _⟩ => rfl
    | ⟨1, _⟩ => rfl)

/-- A vector [a] laid as a column [a, 1] reads, at `(i, u)`, the vector at `i`. -/
theorem cast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] repeated along the lanes to [a, b] reads, at `(p, c)`, the column at row `p`. -/
theorem bcast_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibMinFold

end
-- ==== Proof.LibMin3.lean ====
/-
  Minimum-reductions of a rank-3 array over one axis, read at an index, for any extents.

  At the exact (extended-real) reading of floats a `vector.multi_reduction <minimumf>` of an [A, B, C] array over its last
  axis is, at (a, b), the fold of `min` from the accumulator's value over the last coordinate; over its middle axis it is, at
  (a, c), the fold over the middle coordinate.  Each lemma takes the shape fact, the format proof and the accumulator proof
  as variables, so that it applies to the reduction as a printed program spells it.
-/
import Idealize.ShloMosaic.PureOps.Ideal.Laws
import Idealize.ShloMosaic.Lib.ValueIdx
import proofs.«122902_j84043920048708_2_alg».proof.Proof.LibMinFold

noncomputable section

namespace Cert.LibMin3

open Idealize.ShloMosaic Idealize.ShloMosaic.ValueIdx

/-- Over the last axis of an [A, B, C] array: at (a, b), the fold of `min` over the last coordinate. -/
theorem lastMin_apply {A B C : ℕ} (src : FVec Ideal ⟨3, ![A, B, C]⟩ .f32) (acc : BitVec 32)
    (h : (⟨3, ![A, B, C]⟩ : Shape).Reduces [2] ⟨2, ![A, B]⟩) (hφ : FKind.Formats .f32)
    (hacc : acc = FKind.minimumf.neutral .f32 hφ) (a : Fin A) (b : Fin B) :
    multiReduction .minimumf [2] ⟨2, ![A, B]⟩ src acc h hφ hacc (ix2 a b)
      = (Finset.univ : Finset (Fin C)).fold min (Ideal.ofBits .f32 acc) (fun k => src (ix3 a b k)) :=
  (Cert.LibMinFold.multiReduction_minimumf_single src acc h hφ hacc (ix2 a b)).trans (by
    show (Finset.univ : Finset (Fin C)).fold min _ _ = _
    congr 1
    funext k
    show src (h.lift (ix2 a b) k) = src (ix3 a b k)
    congr 1
    funext ax
    apply Fin.ext
    match ax with
    | ⟨0, _⟩ => rfl
    | ⟨1, _⟩ => rfl
    | ⟨2, _⟩ => rfl)

/-- Over the middle axis of an [A, B, C] array: at (a, c), the fold of `min` over the middle coordinate. -/
theorem midMin_apply {A B C : ℕ} (src : FVec Ideal ⟨3, ![A, B, C]⟩ .f32) (acc : BitVec 32)
    (h : (⟨3, ![A, B, C]⟩ : Shape).Reduces [1] ⟨2, ![A, C]⟩) (hφ : FKind.Formats .f32)
    (hacc : acc = FKind.minimumf.neutral .f32 hφ) (a : Fin A) (c : Fin C) :
    multiReduction .minimumf [1] ⟨2, ![A, C]⟩ src acc h hφ hacc (ix2 a c)
      = (Finset.univ : Finset (Fin B)).fold min (Ideal.ofBits .f32 acc) (fun k => src (ix3 a k c)) :=
  (Cert.LibMinFold.multiReduction_minimumf_single src acc h hφ hacc (ix2 a c)).trans (by
    show (Finset.univ : Finset (Fin B)).fold min _ _ = _
    congr 1
    funext k
    show src (h.lift (ix2 a c) k) = src (ix3 a k c)
    congr 1
    funext ax
    apply Fin.ext
    match ax with
    | ⟨0, _⟩ => rfl
    | ⟨1, _⟩ => rfl
    | ⟨2, _⟩ => rfl)

end Cert.LibMin3

end
-- ==== Proof.Payload.lean ====
/-
  The kernel body's arithmetic read entry by entry, at the exact (extended-real) values.

  The body holds a query block x0 [2, 3, 512] and a key block x1 [2, 3, 2048], coordinates on the middle axis.  Its distance
  tile [2, 512, 2048] is built per coordinate d from row d of x0 laid along the key axis and row d of x1 laid along the query
  axis: `tile_apply` reads it at (b, r, q) as the sum of the three squared differences.  The row update at (b, r) is the old
  entry against the fold of `min` over the tile's 2048 key positions; the column update at (b, q) the old entry against the
  fold over its 512 query positions.  The reset value is the word of +∞ everywhere, and the copies to the output blocks
  change no value.
-/
import proofs.«122902_j84043920048708_2_alg».proof.Proof.Gen.KernelIdeal.Skeleton
import proofs.«122902_j84043920048708_2_alg».proof.Proof.LibMin3
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- Row `o` of a query block, laid as a column and repeated along the key axis: at (b, r, q) the block at (b, o, r). -/
theorem queryRow_apply (x : FVec Ideal S2x3x512 .f32) (o : ℕ) (d : Fin 3) (hd : d.val = o)
    (h0 : S2x3x512.ShapeCasts S2x3x512) (h1 : S2x3x512.Slices ![0, o, 0] S2x1x512) (h2 : S2x1x512.ShapeCasts S2x512)
    (h3 : S2x512.ShapeCasts S2x512x1) (h4 : S2x512x1.Broadcasts S2x512x2048) (b : Fin 2) (r : Fin 512) (q : Fin 2048) :
    broadcastTo S2x512x2048 (shapeCast S2x512x1 (shapeCast S2x512 (extractStridedSlice S2x1x512 ![0, o, 0]
      (shapeCast S2x3x512 x h0) h1) h2) h3) h4 (ix3 b r q) = x (ix3 b d r) := by
  rw [broadcastTo_apply _ h4 (ix3 b r q) (ix3 b r (0 : Fin 1)) (fun ax => by
        match ax with
        | ⟨0, _⟩ => rfl
        | ⟨1, _⟩ => rfl
        | ⟨2, _⟩ => rfl),
    shapeCast_apply _ h3 (ix3 b r (0 : Fin 1)) (ix2 b r) (by
        rw [Shape.rowMajor_val_two, Shape.rowMajor_val_three]
        show b.val * 512 + r.val = (b.val * 512 + r.val) * 1 + 0
        omega),
    shapeCast_apply _ h2 (ix2 b r) (ix3 b (0 : Fin 1) r) (by
        rw [Shape.rowMajor_val_three, Shape.rowMajor_val_two]
        show (b.val * 1 + 0) * 512 + r.val = b.val * 512 + r.val
        omega),
    slice3_axis1_apply o _ h1 b (0 : Fin 1) r d (by rw [hd]; rfl),
    shapeCast_self]

/-- Row `o` of a key block, laid as a row and repeated along the query axis: at (b, r, q) the block at (b, o, q). -/
theorem keyRow_apply (x : FVec Ideal S2x3x2048 .f32) (o : ℕ) (d : Fin 3) (hd : d.val = o)
    (h0 : S2x3x2048.ShapeCasts S2x3x2048) (h1 : S2x3x2048.Slices ![0, o, 0] S2x1x2048) (h2 : S2x1x2048.ShapeCasts S2x2048)
    (h3 : S2x2048.ShapeCasts S2x1x2048) (h4 : S2x1x2048.Broadcasts S2x512x2048) (b : Fin 2) (r : Fin 512) (q : Fin 2048) :
    broadcastTo S2x512x2048 (shapeCast S2x1x2048 (shapeCast S2x2048 (extractStridedSlice S2x1x2048 ![0, o, 0]
      (shapeCast S2x3x2048 x h0) h1) h2) h3) h4 (ix3 b r q) = x (ix3 b d q) := by
  rw [broadcastTo_apply _ h4 (ix3 b r q) (ix3 b (0 : Fin 1) q) (fun ax => by
        match ax with
        | ⟨0, _⟩ => rfl
        | ⟨1, _⟩ => rfl
        | ⟨2, _⟩ => rfl),
    shapeCast_apply _ h3 (ix3 b (0 : Fin 1) q) (ix2 b q) (by
        rw [Shape.rowMajor_val_two, Shape.rowMajor_val_three]
        show b.val * 2048 + q.val = (b.val * 1 + 0) * 2048 + q.val
        omega),
    shapeCast_apply _ h2 (ix2 b q) (ix3 b (0 : Fin 1) q) (by
        rw [Shape.rowMajor_val_three, Shape.rowMajor_val_two]
        show (b.val * 1 + 0) * 2048 + q.val = b.val * 2048 + q.val
        omega),
    slice3_axis1_apply o _ h1 b (0 : Fin 1) q d (by rw [hd]; rfl),
    shapeCast_self]

/-- The distance tile at (b, r, q): the three squared coordinate differences between query r and key q, added in order. -/
theorem tile_apply (x0 : FVec Ideal S2x3x512 .f32) (x1 : FVec Ideal S2x3x2048 .f32) (b : Fin 2) (r : Fin 512) (q : Fin 2048) :
    k0_pay6 x0 x1 (ix3 b r q)
      = ((x0 (ix3 b 0 r) - x1 (ix3 b 0 q)) * (x0 (ix3 b 0 r) - x1 (ix3 b 0 q))
          + (x0 (ix3 b 1 r) - x1 (ix3 b 1 q)) * (x0 (ix3 b 1 r) - x1 (ix3 b 1 q)))
        + (x0 (ix3 b 2 r) - x1 (ix3 b 2 q)) * (x0 (ix3 b 2 r) - x1 (ix3 b 2 q)) := by
  unfold k0_pay6
  simp only [addf_apply, mulf_apply, subf_apply]
  rw [queryRow_apply x0 0 0 rfl, keyRow_apply x1 0 0 rfl, queryRow_apply x0 1 1 rfl, keyRow_apply x1 1 1 rfl,
    queryRow_apply x0 2 2 rfl, keyRow_apply x1 2 2 rfl]

/-- The row update at (b, r): the old entry against the least of the tile over its 2048 key positions. -/
theorem rowUpd_apply (x0 : FVec Ideal S2x3x512 .f32) (x1 : FVec Ideal S2x3x2048 .f32) (old : FVec Ideal S2x512 .f32)
    (b : Fin 2) (r : Fin 512) :
    k0_pay1 (k0_pay7 x0 x1 old) (ix2 b r)
      = min (old (ix2 b r))
          ((Finset.univ : Finset (Fin 2048)).fold min (Ideal.ofBits .f32 0x7F800000#32) (fun q => k0_pay6 x0 x1 (ix3 b r q))) := by
  unfold k0_pay1 k0_pay7
  rw [shapeCast_self, minimumf_apply]
  exact congrArg (min (old (ix2 b r))) (Cert.LibMin3.lastMin_apply (k0_pay6 x0 x1) _ _ _ _ b r)

/-- The column update at (b, q): the old entry against the least of the tile over its 512 query positions. -/
theorem colUpd_apply (tile : FVec Ideal S2x512x2048 .f32) (old : FVec Ideal S2x2048 .f32) (b : Fin 2) (q : Fin 2048) :
    k0_pay2 tile old (ix2 b q)
      = min (old (ix2 b q))
          ((Finset.univ : Finset (Fin 512)).fold min (Ideal.ofBits .f32 0x7F800000#32) (fun r => tile (ix3 b r q))) := by
  unfold k0_pay2
  rw [shapeCast_self, minimumf_apply]
  exact congrArg (min (old (ix2 b q))) (Cert.LibMin3.midMin_apply tile _ _ _ _ b q)

/-- The row accumulator's reset value: the word of +∞ at every entry. -/
theorem rowReset_apply (y : S2x512.Idx) : k0_pay4 (F := Ideal) y = Ideal.ofBits .f32 0x7F800000#32 := by
  unfold k0_pay4
  rw [shapeCast_self]
  rfl

/-- The column accumulator's reset value: the word of +∞ at every entry. -/
theorem colReset_apply (y : S2x8192.Idx) : k0_pay5 (F := Ideal) y = Ideal.ofBits .f32 0x7F800000#32 := by
  unfold k0_pay5
  rw [shapeCast_self]
  rfl

/-- The column accumulator laid as [1, 2, 8192] for the output block: at (u, b, k) its entry (b, k). -/
theorem colOut_apply (v : FVec Ideal S2x8192 .f32) (u : Fin 1) (b : Fin 2) (k : Fin 8192) :
    k0_pay3 v (ix3 u b k) = v (ix2 b k) := by
  unfold k0_pay3
  rw [shapeCast_ab_1ab_apply]

end Cert.KernelIdeal.Payload

end
-- ==== Proof.Blocks.lean ====
/-
  The input blocks of a grid point, read entry by entry as entries of the two point clouds.

  Before the region the host exchanges the last two axes of each cloud, so the kernel's operands are [2, 3, 8192]: batch,
  coordinate, point.  The grid has 16 query tiles of 512 points and, inside each, 4 key tiles of 2048 points; point t of
  the grid, counted row-major, is query tile t / 4 and key tile t % 4.  So the query block of point t holds at (b, d, r)
  coordinate d of query point 512 (t / 4) + r, and its key block holds at (b, d, q) coordinate d of key point
  2048 (t % 4) + q.
-/
import proofs.«122902_j84043920048708_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The first operand as the region finds it: the first cloud with its last two axes exchanged. -/
theorem queries_eq (c : Dev nD) :
    (V m c main_v0 : S2x3x8192.Idx → EReal)
      = transpose S2x3x8192 [0, 2, 1] (m ((c : Thread nD τ).loc main_arg0)) transposes_S2x8192x3_S2x3x8192_0_2_1 := by
  show StableHlo.after hostOps0 (fun b => m (c, b)) (Proc.devRef .tc main_v0) = _
  after_results

/-- The second operand as the region finds it: the second cloud with its last two axes exchanged. -/
theorem keys_eq (c : Dev nD) :
    (V m c main_v1 : S2x3x8192.Idx → EReal)
      = transpose S2x3x8192 [0, 2, 1] (m ((c : Thread nD τ).loc main_arg1)) transposes_S2x8192x3_S2x3x8192_0_2_1 := by
  show StableHlo.after hostOps0 (fun b => m (c, b)) (Proc.devRef .tc main_v1) = _
  after_results

/-- The query window's block index at point t: the whole batch and coordinate axes, query tile t / 4. -/
theorem queryIndex : ∀ t : Fin cfg0.N,
    win0_0.index t (0 : Fin 3) = 0 ∧ win0_0.index t (1 : Fin 3) = 0 ∧ win0_0.index t (2 : Fin 3) = t.val / 4 :=
  (by decide +kernel : ∀ t : Fin grid0.N,
    win0_0.index t (0 : Fin 3) = 0 ∧ win0_0.index t (1 : Fin 3) = 0 ∧ win0_0.index t (2 : Fin 3) = t.val / 4)

/-- The key window's block index at point t: the whole batch and coordinate axes, key tile t % 4. -/
theorem keyIndex : ∀ t : Fin cfg0.N,
    win0_1.index t (0 : Fin 3) = 0 ∧ win0_1.index t (1 : Fin 3) = 0 ∧ win0_1.index t (2 : Fin 3) = t.val % 4 :=
  (by decide +kernel : ∀ t : Fin grid0.N,
    win0_1.index t (0 : Fin 3) = 0 ∧ win0_1.index t (1 : Fin 3) = 0 ∧ win0_1.index t (2 : Fin 3) = t.val % 4)

/-- The query block of point t at (b, d, r): coordinate d of query point n = 512 (t / 4) + r. -/
theorem queryBlock_apply (c : Dev nD) (t : Fin cfg0.N) (b : Fin 2) (d : Fin 3) (r : Fin 512) (n : Fin 8192)
    (hn : n.val = 512 * (t.val / 4) + r.val) :
    (iblk m c 0 t : S2x3x512.Idx → EReal) (ix3 b d r) = m ((c : Thread nD τ).loc main_arg0) (ix3 b n d) := by
  have hi := queryIndex t
  unfold iblk
  rw [View.read_apply]
  have e : ((cfg0.win 0).blk t).view.emb (ix3 b d r) = (ix3 b d n : S2x3x8192.Idx) := by
    funext a
    apply Fin.ext
    match a with
    | ⟨0, _⟩ => show win0_0.index t (0 : Fin 3) * 2 + 1 * b.val = b.val; rw [hi.1]; omega
    | ⟨1, _⟩ => show win0_0.index t (1 : Fin 3) * 3 + 1 * d.val = d.val; rw [hi.2.1]; omega
    | ⟨2, _⟩ => show win0_0.index t (2 : Fin 3) * 512 + 1 * r.val = n.val; rw [hi.2.2, hn]; omega
  show V m c main_v0 (((cfg0.win 0).blk t).view.emb (ix3 b d r)) = _
  rw [e, queries_eq]
  exact transpose_ix3_021_apply _ _ b d n

/-- The key block of point t at (b, d, q): coordinate d of key point k = 2048 (t % 4) + q. -/
theorem keyBlock_apply (c : Dev nD) (t : Fin cfg0.N) (b : Fin 2) (d : Fin 3) (q : Fin 2048) (k : Fin 8192)
    (hk : k.val = 2048 * (t.val % 4) + q.val) :
    (iblk m c 1 t : S2x3x2048.Idx → EReal) (ix3 b d q) = m ((c : Thread nD τ).loc main_arg1) (ix3 b k d) := by
  have hi := keyIndex t
  unfold iblk
  rw [View.read_apply]
  have e : ((cfg0.win 1).blk t).view.emb (ix3 b d q) = (ix3 b d k : S2x3x8192.Idx) := by
    funext a
    apply Fin.ext
    match a with
    | ⟨0, _⟩ => show win0_1.index t (0 : Fin 3) * 2 + 1 * b.val = b.val; rw [hi.1]; omega
    | ⟨1, _⟩ => show win0_1.index t (1 : Fin 3) * 3 + 1 * d.val = d.val; rw [hi.2.1]; omega
    | ⟨2, _⟩ => show win0_1.index t (2 : Fin 3) * 2048 + 1 * q.val = k.val; rw [hi.2.2, hk]; omega
  show V m c main_v1 (((cfg0.win 1).blk t).view.emb (ix3 b d q)) = _
  rw [e, keys_eq]
  exact transpose_ix3_021_apply _ _ b d k

end Cert.KernelIdeal.Blocks

end
-- ==== Proof.Tiles.lean ====
/-
  A minimum over 8192 positions taken tile by tile.

  The 8192 key positions fall into 4 tiles of 2048, the 8192 query positions into 16 tiles of 512.  `partMin w f J` is the
  fold of `min` from `w` over the positions before tile J.  Taking in one more tile extends it (`partMin_succ`), before the
  first tile it is `w` (`partMin_zero`), after the fourth it is the fold over all positions (`partMin_four`).  In the other
  direction, the fold over the 16 tiles of each tile's own minimum (itself taken against `w` once more) is the fold over all
  positions (`fold_queryTiles`).  Each is the universal property of a fold of `min`: a bound lies below it exactly when it
  lies below the starting value and below every entry.
-/
import Mathlib.Data.Finset.Fold
import Mathlib.Data.Fintype.Basic
import Mathlib.Order.Basic
import Mathlib.Tactic

namespace Cert.Chamfer

variable {α : Type*} [LinearOrder α]

/-- Position q of key tile j. -/
def keyAt (j : Fin 4) (q : Fin 2048) : Fin 8192 :=
  ⟨2048 * j.val + q.val, by have := j.isLt; have := q.isLt; omega⟩

/-- Position r of query tile p. -/
def queryAt (p : Fin 16) (r : Fin 512) : Fin 8192 :=
  ⟨512 * p.val + r.val, by have := p.isLt; have := r.isLt; omega⟩

@[simp] theorem keyAt_val (j : Fin 4) (q : Fin 2048) : (keyAt j q).val = 2048 * j.val + q.val := rfl
@[simp] theorem queryAt_val (p : Fin 16) (r : Fin 512) : (queryAt p r).val = 512 * p.val + r.val := rfl

/-- The fold of `min` from `w` over the positions before key tile J. -/
def partMin (w : α) (f : Fin 8192 → α) (J : ℕ) : α :=
  (Finset.univ.filter fun k : Fin 8192 => k.val < 2048 * J).fold min w f

theorem partMin_zero (w : α) (f : Fin 8192 → α) : partMin w f 0 = w := by
  unfold partMin
  have h : (Finset.univ.filter fun k : Fin 8192 => k.val < 2048 * 0) = ∅ :=
    Finset.filter_eq_empty_iff.mpr fun k _ hk => by omega
  rw [h, Finset.fold_empty]

/-- One more tile: the part before tile j against tile j's own minimum is the part before tile j + 1. -/
theorem partMin_succ (w : α) (f : Fin 8192 → α) (j : Fin 4) :
    min (partMin w f j.val) ((Finset.univ : Finset (Fin 2048)).fold min w fun q => f (keyAt j q))
      = partMin w f (j.val + 1) := by
  refine eq_of_forall_le_iff fun c => ?_
  unfold partMin
  rw [le_min_iff, Finset.le_fold_min, Finset.le_fold_min, Finset.le_fold_min]
  constructor
  · rintro ⟨⟨hw, h1⟩, _, h2⟩
    refine ⟨hw, fun k hk => ?_⟩
    have hk' : k.val < 2048 * (j.val + 1) := (Finset.mem_filter.mp hk).2
    by_cases hlt : k.val < 2048 * j.val
    · exact h1 k (Finset.mem_filter.mpr ⟨Finset.mem_univ _, hlt⟩)
    · have hq : k.val - 2048 * j.val < 2048 := by omega
      have h3 := h2 ⟨k.val - 2048 * j.val, hq⟩ (Finset.mem_univ _)
      have e : keyAt j ⟨k.val - 2048 * j.val, hq⟩ = k :=
        Fin.ext (by show 2048 * j.val + (k.val - 2048 * j.val) = k.val; omega)
      rwa [e] at h3
  · rintro ⟨hw, h⟩
    refine ⟨⟨hw, fun k hk => h k ?_⟩, hw, fun q _ => h (keyAt j q) ?_⟩
    · have hk' : k.val < 2048 * j.val := (Finset.mem_filter.mp hk).2
      exact Finset.mem_filter.mpr ⟨Finset.mem_univ _, by omega⟩
    · exact Finset.mem_filter.mpr ⟨Finset.mem_univ _, by
        show 2048 * j.val + q.val < 2048 * (j.val + 1)
        have := q.isLt
        omega⟩

theorem partMin_four (w : α) (f : Fin 8192 → α) : partMin w f 4 = (Finset.univ : Finset (Fin 8192)).fold min w f := by
  unfold partMin
  have h : (Finset.univ.filter fun k : Fin 8192 => k.val < 2048 * 4) = Finset.univ :=
    Finset.filter_true_of_mem fun k _ => by have := k.isLt; omega
  rw [h]

/-- The fold over the 16 query tiles of each tile's minimum, taken against `w` again, is the fold over all positions. -/
theorem fold_queryTiles (w : α) (f : Fin 8192 → α) :
    ((Finset.univ : Finset (Fin 16)).fold min w fun p =>
        min w ((Finset.univ : Finset (Fin 512)).fold min w fun r => f (queryAt p r)))
      = (Finset.univ : Finset (Fin 8192)).fold min w f := by
  refine eq_of_forall_le_iff fun c => ?_
  rw [Finset.le_fold_min, Finset.le_fold_min]
  constructor
  · rintro ⟨hw, h⟩
    refine ⟨hw, fun n _ => ?_⟩
    have hp : n.val / 512 < 16 := by have := n.isLt; omega
    have hr : n.val % 512 < 512 := Nat.mod_lt _ (by norm_num)
    have h1 := h ⟨n.val / 512, hp⟩ (Finset.mem_univ _)
    rw [le_min_iff, Finset.le_fold_min] at h1
    have h2 := h1.2.2 ⟨n.val % 512, hr⟩ (Finset.mem_univ _)
    have e : queryAt ⟨n.val / 512, hp⟩ ⟨n.val % 512, hr⟩ = n :=
      Fin.ext (by show 512 * (n.val / 512) + n.val % 512 = n.val; omega)
    rwa [e] at h2
  · rintro ⟨hw, h⟩
    refine ⟨hw, fun p _ => ?_⟩
    rw [le_min_iff, Finset.le_fold_min]
    exact ⟨hw, hw, fun r _ => h _ (Finset.mem_univ _)⟩

end Cert.Chamfer
-- ==== Proof.Spec.lean ====
/-
  The quantities both programs compute, as functions of the two point clouds.

  A cloud is an array [2, 8192, 3]: batch, point, coordinate.  `dist a g b n k` is the squared Euclidean distance between
  query point `n` and key point `k` of batch `b`, written as the sum of the three squared coordinate differences in the order
  the kernel adds them.  `rowMin` is the least squared distance from a query point to any key point, `colMin` the least from
  a key point to any query point, each as the fold of `min` from `+∞` over all 8192 candidates.  `loss` is the kernel's scalar:
  the mean over the batch of (mean of `rowMin` + mean of `colMin`), scaled by 6400 at the very end.

  The reference scales both clouds by 80 first and gets the squared distance from the expansion
  |x|² + |y|² − 2 x·y, clamped at zero: `refDist`; `refLoss` is its scalar, the same means with no final factor.
  Float literals are kept as their words; what each denotes is stated where it is needed.
-/
import Idealize.ShloMosaic.PureOps.Ideal
import Idealize.ShloMosaic.Lib.ValueIdx

noncomputable section

namespace Cert.Chamfer

open Idealize.ShloMosaic Idealize.ShloMosaic.ValueIdx

/-- A point cloud: batch × point × coordinate, entries extended reals. -/
abbrev Cloud : Type := (⟨3, ![2, 8192, 3]⟩ : Shape).Idx → EReal

/-- The words of the float literals the two programs spell. -/
abbrev w0 : EReal := Ideal.ofBits .f32 0x00000000#32
abbrev wInf : EReal := Ideal.ofBits .f32 0x7F800000#32
abbrev w2 : EReal := Ideal.ofBits .f32 0x40000000#32
abbrev w80 : EReal := Ideal.ofBits .f32 0x42A00000#32
abbrev w8192 : EReal := Ideal.ofBits .f32 0x46000000#32
abbrev w6400 : EReal := Ideal.ofBits .f32 0x45C80000#32

/-- Squared distance between query point `n` of `a` and key point `k` of `g` in batch `b`. -/
def dist (a g : Cloud) (b : Fin 2) (n k : Fin 8192) : EReal :=
  ((a (ix3 b n 0) - g (ix3 b k 0)) * (a (ix3 b n 0) - g (ix3 b k 0))
    + (a (ix3 b n 1) - g (ix3 b k 1)) * (a (ix3 b n 1) - g (ix3 b k 1)))
    + (a (ix3 b n 2) - g (ix3 b k 2)) * (a (ix3 b n 2) - g (ix3 b k 2))

/-- Least squared distance from query point `n` to the key points. -/
def rowMin (a g : Cloud) (b : Fin 2) (n : Fin 8192) : EReal :=
  (Finset.univ : Finset (Fin 8192)).fold min wInf (fun k => dist a g b n k)

/-- Least squared distance from key point `k` to the query points. -/
def colMin (a g : Cloud) (b : Fin 2) (k : Fin 8192) : EReal :=
  (Finset.univ : Finset (Fin 8192)).fold min wInf (fun n => dist a g b n k)

/-- The kernel's scalar: batch mean of the two directions' means, times 6400. -/
def loss (a g : Cloud) : EReal :=
  Ideal.div (w0 + ∑ b : Fin 2,
      (Ideal.div (w0 + ∑ n : Fin 8192, rowMin a g b n) w8192 + Ideal.div (w0 + ∑ k : Fin 8192, colMin a g b k) w8192)) w2
    * w6400

/-- The reference's squared distance between the clouds scaled by 80: |x|² + |y|² − 2 x·y, clamped at zero. -/
def refDist (a g : Cloud) (b : Fin 2) (n k : Fin 8192) : EReal :=
  max (((w0 + ∑ d : Fin 3, (a (ix3 b n d) * w80) * (a (ix3 b n d) * w80))
        + (w0 + ∑ d : Fin 3, (g (ix3 b k d) * w80) * (g (ix3 b k d) * w80)))
      - w2 * ∑ d : Fin 3, (a (ix3 b n d) * w80) * (g (ix3 b k d) * w80)) w0

/-- The reference's scalar: batch mean of the two directions' means of its own minima. -/
def refLoss (a g : Cloud) : EReal :=
  Ideal.div (w0 + ∑ b : Fin 2,
      (Ideal.div (w0 + ∑ n : Fin 8192, (Finset.univ : Finset (Fin 8192)).fold min wInf (fun k => refDist a g b n k)) w8192
        + Ideal.div (w0 + ∑ k : Fin 8192, (Finset.univ : Finset (Fin 8192)).fold min wInf (fun n => refDist a g b n k)) w8192)) w2

end Cert.Chamfer

end
-- ==== Proof.Acc.lean ====
/-
  What the two accumulators hold after each grid point.

  Point t of the 64-point grid is query tile p = t / 4 and key tile j = t % 4.  After it, the row accumulator holds at (b, r)
  the least squared distance from query point 512 p + r to the key points of tiles 0 … j, and the column accumulator holds at
  (b, k), for k in tiles 0 … j, the least squared distance from key point k to the 512 query points of tile p, and +∞ beyond.
  The first key tile resets both, so its point needs nothing from the point before; a later point extends what the point
  before left by one tile.  The statement is proved point after point.
-/
import proofs.«122902_j84043920048708_2_alg».proof.Proof.Found
import proofs.«122902_j84043920048708_2_alg».proof.Proof.Payload
import proofs.«122902_j84043920048708_2_alg».proof.Proof.Blocks
import proofs.«122902_j84043920048708_2_alg».proof.Proof.Tiles
import proofs.«122902_j84043920048708_2_alg».proof.Proof.Spec

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.Chamfer

variable (m : (ℓ : Loc nD τ sig) → Buf (Elt Ideal) ℓ)

/-- The first cloud (queries) and the second (keys), as launched on core `c`. -/
abbrev qs (c : Dev nD) : Cloud := m ((c : Thread nD τ).loc main_arg0)
abbrev ks (c : Dev nD) : Cloud := m ((c : Thread nD τ).loc main_arg1)

theorem nPoints : cfg0.N = 64 := N_0

/-- The query tile and the key tile of point number n. -/
def qTile (n : ℕ) (hn : n < cfg0.N) : Fin 16 := ⟨n / 4, by have := nPoints; omega⟩
def kTile (n : ℕ) : Fin 4 := ⟨n % 4, Nat.mod_lt _ (by norm_num)⟩

/-- The second grid coordinate of point t is its key tile. -/
theorem coord1 : ∀ t : Fin cfg0.N, (grid0.coords t (1 : Fin 2)).val = t.val % 4 :=
  (by decide +kernel : ∀ t : Fin grid0.N, (grid0.coords t (1 : Fin 2)).val = t.val % 4)

/-- The distance tile of point t at (b, r, q): the squared distance between query 512 p + r and key 2048 j + q. -/
theorem tile_eq (c : Dev nD) (t : Fin cfg0.N) (b : Fin 2) (r : Fin 512) (q : Fin 2048) :
    k0_pay6 (F := Ideal) (iblk m c 0 t) (iblk m c 1 t) (ix3 b r q)
      = Cert.Chamfer.dist (qs m c) (ks m c) b (queryAt (qTile t.val t.isLt) r) (keyAt (kTile t.val) q) := by
  refine (Payload.tile_apply (iblk m c 0 t) (iblk m c 1 t) b r q).trans ?_
  unfold Cert.Chamfer.dist
  rw [Blocks.queryBlock_apply m c t b 0 r (queryAt (qTile t.val t.isLt) r) rfl,
    Blocks.queryBlock_apply m c t b 1 r (queryAt (qTile t.val t.isLt) r) rfl,
    Blocks.queryBlock_apply m c t b 2 r (queryAt (qTile t.val t.isLt) r) rfl,
    Blocks.keyBlock_apply m c t b 0 q (keyAt (kTile t.val) q) rfl,
    Blocks.keyBlock_apply m c t b 1 q (keyAt (kTile t.val) q) rfl,
    Blocks.keyBlock_apply m c t b 2 q (keyAt (kTile t.val) q) rfl]

/-- The least squared distance from key point k to the 512 query points of query tile p (against +∞ once more, as the
    accumulator's update takes it). -/
def colTile (c : Dev nD) (b : Fin 2) (p : Fin 16) (k : Fin 8192) : EReal :=
  min wInf ((Finset.univ : Finset (Fin 512)).fold min wInf fun r => Cert.Chamfer.dist (qs m c) (ks m c) b (queryAt p r) k)

/-- The squared distances from query point n of batch b to every key point. -/
abbrev fromQuery (c : Dev nD) (b : Fin 2) (n : Fin 8192) : Fin 8192 → EReal :=
  fun k => Cert.Chamfer.dist (qs m c) (ks m c) b n k

/-- THE ROW STEP. If the row accumulator held at (b, r) the minimum over the key tiles before tile j = t % 4, the update
    at point t leaves the minimum over the tiles before j + 1. -/
theorem rowStep (c : Dev nD) (t : Fin cfg0.N) (old : Vec Ideal S2x512 .f32) (b : Fin 2) (r : Fin 512)
    (hold : old (ix2 b r) = partMin wInf (fromQuery m c b (queryAt (qTile t.val t.isLt) r)) (t.val % 4)) :
    Found.rowUpd (F := Ideal) (iblk m c 0 t) (iblk m c 1 t) old (ix2 b r)
      = partMin wInf (fromQuery m c b (queryAt (qTile t.val t.isLt) r)) (t.val % 4 + 1) := by
  refine (Payload.rowUpd_apply (iblk m c 0 t) (iblk m c 1 t) old b r).trans ?_
  have hf : (fun q : Fin 2048 => k0_pay6 (F := Ideal) (iblk m c 0 t) (iblk m c 1 t) (ix3 b r q))
      = fun q => fromQuery m c b (queryAt (qTile t.val t.isLt) r) (keyAt (kTile t.val) q) :=
    funext fun q => tile_eq m c t b r q
  rw [hf, hold]
  exact partMin_succ wInf (fromQuery m c b (queryAt (qTile t.val t.isLt) r)) (kTile t.val)

/-- THE COLUMN STEP, inside the point's own key tile: over an entry still at +∞ the update leaves the least squared
    distance from that key point to the query points of the point's query tile. -/
theorem colStep (c : Dev nD) (t : Fin cfg0.N) (old : Vec Ideal S2x8192 .f32) (b : Fin 2) (k : Fin 8192) (q : Fin 2048)
    (hk : k.val = 2048 * (t.val % 4) + q.val) (hold : old (ix2 b k) = wInf) :
    Found.colUpd (F := Ideal) (grid0.coords t) (iblk m c 0 t) (iblk m c 1 t) old (ix2 b q)
      = colTile m c b (qTile t.val t.isLt) k := by
  refine (Payload.colUpd_apply _ _ b q).trans ?_
  have hkq : keyAt (kTile t.val) q = k := Fin.ext (by show 2048 * (t.val % 4) + q.val = k.val; omega)
  have hf : (fun r : Fin 512 => k0_pay6 (F := Ideal) (iblk m c 0 t) (iblk m c 1 t) (ix3 b r q))
      = fun r => Cert.Chamfer.dist (qs m c) (ks m c) b (queryAt (qTile t.val t.isLt) r) k :=
    funext fun r => (tile_eq m c t b r q).trans (by rw [hkq])
  have hold' : View.ld old (Found.cols (grid0.coords t)) (ix2 b q) = old (ix2 b k) := by
    show old ((Found.cols (grid0.coords t)).idx (ix2 b q)) = old (ix2 b k)
    congr 1
    funext a
    apply Fin.ext
    have h1 := coord1 t
    match a with
    | ⟨0, _⟩ => show k0_off1 (grid0.coords t) (0 : Fin 2) + 1 * b.val = b.val; rw [k0_off1_eq]; show 0 + 1 * b.val = b.val; omega
    | ⟨1, _⟩ => show k0_off1 (grid0.coords t) (1 : Fin 2) + 1 * q.val = k.val; rw [k0_off1_eq]; show 2048 * (grid0.coords t (1 : Fin 2)).val + 1 * q.val = k.val; rw [h1]; omega
  rw [hf, hold', hold]
  rfl

/-- After point number n the row accumulator holds at (b, r) the least squared distance from query point 512 p + r to the
    key points of the tiles up to the point's own. -/
def RowInv (c : Dev nD) (n : ℕ) (hn : n < cfg0.N) : Prop :=
  ∀ (b : Fin 2) (r : Fin 512),
    (outsAt0 m c n hn).2.2.1 (ix2 b r) = partMin wInf (fromQuery m c b (queryAt (qTile n hn) r)) (n % 4 + 1)

/-- After point number n the column accumulator holds at (b, k), for k in the key tiles up to the point's own, the least
    squared distance from key point k to the query points of the point's query tile, and +∞ beyond. -/
def ColInv (c : Dev nD) (n : ℕ) (hn : n < cfg0.N) : Prop :=
  ∀ (b : Fin 2) (k : Fin 8192),
    (outsAt0 m c n hn).2.2.2 (ix2 b k) = if k.val < 2048 * (n % 4 + 1) then colTile m c b (qTile n hn) k else wInf

/-- The first key tile of a query tile: both accumulators are reset, then updated. -/
theorem invA (c : Dev nD) (t : Fin cfg0.N) (h0 : t.val % 4 = 0) :
    RowInv m c t.val t.isLt ∧ ColInv m c t.val t.isLt := by
  have h1 : ¬t.val % 4 = 3 := by omega
  have hc0 : cond0_0 (grid0.coords t) := (hcond0_0 t).mpr h0
  have hc1 : ¬cond0_1 (grid0.coords t) := fun h => h1 ((hcond0_1 t).mp h)
  unfold RowInv ColInv
  constructor
  · intro b r
    rw [outsAt0_A m c t h0 h1]
    dsimp only
    refine (congrFun (Found.rowA c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t)) (ix2 b r)).trans ?_
    refine rowStep m c t _ b r ?_
    rw [h0, partMin_zero]
    exact Payload.rowReset_apply _
  · intro b k
    rw [outsAt0_A m c t h0 h1]
    dsimp only
    by_cases hin : k.val < 2048 * (t.val % 4 + 1)
    · rw [if_pos hin]
      have hq : k.val < 2048 := by omega
      let q : Fin 2048 := ⟨k.val, hq⟩
      have hqv : q.val = k.val := rfl
      refine (Found.colA_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (ix2 b k) (ix2 b q) (fun a => by
        match a with
        | ⟨0, _⟩ => show b.val = 0 + b.val; omega
        | ⟨1, _⟩ => show k.val = 2048 * (grid0.coords t (1 : Fin 2)).val + q.val; rw [coord1 t]; show k.val = 2048 * (t.val % 4) + q.val; omega)).trans ?_
      exact colStep m c t _ b k q (by omega) (Payload.colReset_apply _)
    · rw [if_neg hin]
      exact (Found.colA_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) (ix2 b k) (by rw [coord1 t]; show k.val < 2048 * (t.val % 4) ∨ 2048 * (t.val % 4) + 2048 ≤ k.val; omega)).trans (Payload.colReset_apply _)

/-- A middle key tile: both accumulators extend what the point before left by one tile. -/
theorem invB (c : Dev nD) (t : Fin cfg0.N) (h0 : ¬t.val % 4 = 0) (h1 : ¬t.val % 4 = 3)
    (ihR : RowInv m c (t.val - 1) (Nat.lt_of_le_of_lt (Nat.sub_le _ _) t.isLt))
    (ihC : ColInv m c (t.val - 1) (Nat.lt_of_le_of_lt (Nat.sub_le _ _) t.isLt)) :
    RowInv m c t.val t.isLt ∧ ColInv m c t.val t.isLt := by
  have hN := nPoints
  have hc0 : ¬cond0_0 (grid0.coords t) := fun h => h0 ((hcond0_0 t).mp h)
  have hc1 : ¬cond0_1 (grid0.coords t) := fun h => h1 ((hcond0_1 t).mp h)
  have e1 : qTile (t.val - 1) (Nat.lt_of_le_of_lt (Nat.sub_le _ _) t.isLt) = qTile t.val t.isLt :=
    Fin.ext (by show (t.val - 1) / 4 = t.val / 4; omega)
  have e2 : (t.val - 1) % 4 + 1 = t.val % 4 := by omega
  unfold RowInv at ihR
  unfold ColInv at ihC
  unfold RowInv ColInv
  constructor
  · intro b r
    rw [outsAt0_B m c t h0 h1]
    dsimp only
    refine (congrFun (Found.rowB c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _) (ix2 b r)).trans ?_
    refine rowStep m c t _ b r ?_
    rw [ihR b r, e1, e2]
  · intro b k
    rw [outsAt0_B m c t h0 h1]
    dsimp only
    by_cases hin : 2048 * (t.val % 4) ≤ k.val ∧ k.val < 2048 * (t.val % 4 + 1)
    · rw [if_pos hin.2]
      have hq : k.val - 2048 * (t.val % 4) < 2048 := by omega
      let q : Fin 2048 := ⟨k.val - 2048 * (t.val % 4), hq⟩
      have hqv : q.val = k.val - 2048 * (t.val % 4) := rfl
      refine (Found.colB_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _ (ix2 b k) (ix2 b q) (fun a => by
        match a with
        | ⟨0, _⟩ => show b.val = 0 + b.val; omega
        | ⟨1, _⟩ => show k.val = 2048 * (grid0.coords t (1 : Fin 2)).val + q.val; rw [coord1 t]; show k.val = 2048 * (t.val % 4) + q.val; omega)).trans ?_
      refine colStep m c t _ b k q (by omega) ?_
      rw [ihC b k, e2, if_neg (by omega)]
    · refine (Found.colB_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _ (ix2 b k) (by rw [coord1 t]; show k.val < 2048 * (t.val % 4) ∨ 2048 * (t.val % 4) + 2048 ≤ k.val; omega)).trans ?_
      rw [ihC b k, e1, e2]
      by_cases hlt : k.val < 2048 * (t.val % 4)
      · rw [if_pos hlt, if_pos (by omega)]
      · rw [if_neg hlt, if_neg (by omega)]

/-- The last key tile: the same extension (the copies to the outputs change neither accumulator). -/
theorem invC (c : Dev nD) (t : Fin cfg0.N) (h0 : ¬t.val % 4 = 0) (h1 : t.val % 4 = 3)
    (ihR : RowInv m c (t.val - 1) (Nat.lt_of_le_of_lt (Nat.sub_le _ _) t.isLt))
    (ihC : ColInv m c (t.val - 1) (Nat.lt_of_le_of_lt (Nat.sub_le _ _) t.isLt)) :
    RowInv m c t.val t.isLt ∧ ColInv m c t.val t.isLt := by
  have hN := nPoints
  have hc0 : ¬cond0_0 (grid0.coords t) := fun h => h0 ((hcond0_0 t).mp h)
  have hc1 : cond0_1 (grid0.coords t) := (hcond0_1 t).mpr h1
  have e1 : qTile (t.val - 1) (Nat.lt_of_le_of_lt (Nat.sub_le _ _) t.isLt) = qTile t.val t.isLt :=
    Fin.ext (by show (t.val - 1) / 4 = t.val / 4; omega)
  have e2 : (t.val - 1) % 4 + 1 = t.val % 4 := by omega
  unfold RowInv at ihR
  unfold ColInv at ihC
  unfold RowInv ColInv
  constructor
  · intro b r
    rw [outsAt0_C m c t h0 h1]
    dsimp only
    refine (congrFun (Found.rowC c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _) (ix2 b r)).trans ?_
    refine rowStep m c t _ b r ?_
    rw [ihR b r, e1, e2]
  · intro b k
    rw [outsAt0_C m c t h0 h1]
    dsimp only
    by_cases hin : 2048 * (t.val % 4) ≤ k.val ∧ k.val < 2048 * (t.val % 4 + 1)
    · rw [if_pos hin.2]
      have hq : k.val - 2048 * (t.val % 4) < 2048 := by omega
      let q : Fin 2048 := ⟨k.val - 2048 * (t.val % 4), hq⟩
      have hqv : q.val = k.val - 2048 * (t.val % 4) := rfl
      refine (Found.colC_in c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _ (ix2 b k) (ix2 b q) (fun a => by
        match a with
        | ⟨0, _⟩ => show b.val = 0 + b.val; omega
        | ⟨1, _⟩ => show k.val = 2048 * (grid0.coords t (1 : Fin 2)).val + q.val; rw [coord1 t]; show k.val = 2048 * (t.val % 4) + q.val; omega)).trans ?_
      refine colStep m c t _ b k q (by omega) ?_
      rw [ihC b k, e2, if_neg (by omega)]
    · refine (Found.colC_out c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _ (ix2 b k) (by rw [coord1 t]; show k.val < 2048 * (t.val % 4) ∨ 2048 * (t.val % 4) + 2048 ≤ k.val; omega)).trans ?_
      rw [ihC b k, e1, e2]
      by_cases hlt : k.val < 2048 * (t.val % 4)
      · rw [if_pos hlt, if_pos (by omega)]
      · rw [if_neg hlt, if_neg (by omega)]

/-- The invariant at every point, point after point. -/
theorem inv (c : Dev nD) : ∀ (n : ℕ) (hn : n < cfg0.N), RowInv m c n hn ∧ ColInv m c n hn
  | 0, hn => invA m c ⟨0, hn⟩ rfl
  | n + 1, hn => by
    by_cases h0 : (n + 1) % 4 = 0
    · exact invA m c ⟨n + 1, hn⟩ h0
    · have ih := inv c n (Nat.lt_of_succ_lt hn)
      by_cases h1 : (n + 1) % 4 = 3
      · exact invC m c ⟨n + 1, hn⟩ h0 h1 ih.1 ih.2
      · exact invB m c ⟨n + 1, hn⟩ h0 h1 ih.1 ih.2

end Cert.KernelIdeal.Acc

end
-- ==== Proof.Arrays.lean ====
/-
  The two output arrays after the region.

  The first output [2, 8192] is written back, one [2, 512] block per query tile, at the tile's last key tile, where the row
  accumulator has taken in all four key tiles: the array ends holding at (b, n) the least squared distance from query point
  n to all 8192 key points (`finalRows`).  The second output [16, 2, 8192] gets, at the same points, slab p from the column
  accumulator of query tile p: the array ends holding at (p, b, k) the least squared distance from key point k to the 512
  query points of tile p (`finalCols`).  Each query tile's last point covers its own block, and these blocks tile the
  arrays.
-/
import proofs.«122902_j84043920048708_2_alg».proof.Proof.Acc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Chamfer Cert.KernelIdeal.Acc

variable (m : (ℓ : Loc nD τ sig) → Buf (Elt Ideal) ℓ)

/-- What the first output array ends holding: at (b, n) the least squared distance from query n to the keys. -/
def rowArr (c : Dev nD) : S2x8192.Idx → EReal := fun i => rowMin (qs m c) (ks m c) (i 0) (i 1)

/-- What the second output array ends holding: at (p, b, k) the least squared distance from key k to query tile p. -/
def colArr (c : Dev nD) : S16x2x8192.Idx → EReal := fun i => colTile m c (i 1) (i 0) (i 2)

/-- The first output's block index at point t: the whole batch axis, query tile t / 4. -/
theorem rowIndex : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)

/-- The second output's block index at point t: slab t / 4, the whole batch and key axes. -/
theorem colIndex : ∀ t : Fin cfg0.N,
    win0_3.index t (0 : Fin 3) = t.val / 4 ∧ win0_3.index t (1 : Fin 3) = 0 ∧ win0_3.index t (2 : Fin 3) = 0 :=
  (by decide +kernel : ∀ t : Fin grid0.N,
    win0_3.index t (0 : Fin 3) = t.val / 4 ∧ win0_3.index t (1 : Fin 3) = 0 ∧ win0_3.index t (2 : Fin 3) = 0)

/-- At a last key tile the first output's block is the row accumulator as the point leaves it. -/
theorem outRow_eq (c : Dev nD) (t : Fin cfg0.N) (h3 : t.val % 4 = 3) :
    (outsAt0 m c t.val t.isLt).1 = (outsAt0 m c t.val t.isLt).2.2.1 := by
  have h0 : ¬t.val % 4 = 0 := by omega
  have hc0 : ¬cond0_0 (grid0.coords t) := fun h => h0 ((hcond0_0 t).mp h)
  have hc1 : cond0_1 (grid0.coords t) := (hcond0_1 t).mpr h3
  rw [outsAt0_C m c t h0 h3]
  dsimp only
  exact (Found.outRowC c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _).trans
    (Found.rowC c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _).symm

/-- At a last key tile the second output's block is the column accumulator as the point leaves it, laid as [1, 2, 8192]. -/
theorem outCol_eq (c : Dev nD) (t : Fin cfg0.N) (h3 : t.val % 4 = 3) (u : Fin 1) (b : Fin 2) (k : Fin 8192) :
    (outsAt0 m c t.val t.isLt).2.1 (ix3 u b k) = (outsAt0 m c t.val t.isLt).2.2.2 (ix2 b k) := by
  have h0 : ¬t.val % 4 = 0 := by omega
  have hc0 : ¬cond0_0 (grid0.coords t) := fun h => h0 ((hcond0_0 t).mp h)
  have hc1 : cond0_1 (grid0.coords t) := (hcond0_1 t).mpr h3
  rw [outsAt0_C m c t h0 h3]
  dsimp only
  exact (congrFun (Found.outColC c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk m c 0 t) (iblk m c 1 t) _ _) (ix3 u b k)).trans
    (Payload.colOut_apply _ u b k)

/-- What a write-back of the first output writes is its block of `rowArr`. -/
theorem flushedRows (c : Dev nD) (t : Fin cfg0.N) (hf : (cfg0.win 2).flush t = true) :
    (dats m 0 c).flushed 2 t = ((cfg0.win 2).blk t).view.read (Elt Ideal) (rowArr m c) := by
  have h3 : t.val % 4 = 3 := (flush0_2 t).mp hf
  have hi := rowIndex t
  show (cfg0.win 2).cut (grid0.coords t) ((dats m 0 c).after 2 t) = _
  rw [after0_2, outRow_eq m c t h3]
  funext y
  obtain ⟨b, r, rfl⟩ : ∃ (b : Fin 2) (r : Fin 512), y = ix2 b r := ⟨y 0, y 1, eq_ix2 y⟩
  rw [View.read_apply]
  have e : ((cfg0.win 2).blk t).view.emb (ix2 b r) = (ix2 b (queryAt (qTile t.val t.isLt) r) : S2x8192.Idx) := by
    funext a
    apply Fin.ext
    match a with
    | ⟨0, _⟩ => show win0_2.index t (0 : Fin 2) * 2 + 1 * b.val = b.val; rw [hi.1]; omega
    | ⟨1, _⟩ => show win0_2.index t (1 : Fin 2) * 512 + 1 * r.val = 512 * (t.val / 4) + r.val; rw [hi.2]; omega
  rw [e]
  show (outsAt0 m c t.val t.isLt).2.2.1 (ix2 b r) = rowMin (qs m c) (ks m c) b (queryAt (qTile t.val t.isLt) r)
  have hR := (inv m c t.val t.isLt).1
  unfold RowInv at hR
  rw [hR b r, h3]
  exact partMin_four wInf _

/-- What a write-back of the second output writes is its block of `colArr`. -/
theorem flushedCols (c : Dev nD) (t : Fin cfg0.N) (hf : (cfg0.win 3).flush t = true) :
    (dats m 0 c).flushed 3 t = ((cfg0.win 3).blk t).view.read (Elt Ideal) (colArr m c) := by
  have h3 : t.val % 4 = 3 := (flush0_3 t).mp hf
  have hi := colIndex t
  show (cfg0.win 3).cut (grid0.coords t) ((dats m 0 c).after 3 t) = _
  rw [after0_3]
  funext y
  obtain ⟨u, b, k, rfl⟩ : ∃ (u : Fin 1) (b : Fin 2) (k : Fin 8192), y = ix3 u b k := ⟨y 0, y 1, y 2, eq_ix3 y⟩
  rw [View.read_apply]
  have e : ((cfg0.win 3).blk t).view.emb (ix3 u b k) = (ix3 (qTile t.val t.isLt) b k : S16x2x8192.Idx) := by
    funext a
    apply Fin.ext
    have hu : u.val = 0 := by omega
    match a with
    | ⟨0, _⟩ => show win0_3.index t (0 : Fin 3) * 1 + 1 * u.val = t.val / 4; rw [hi.1, hu]; omega
    | ⟨1, _⟩ => show win0_3.index t (1 : Fin 3) * 2 + 1 * b.val = b.val; rw [hi.2.1]; omega
    | ⟨2, _⟩ => show win0_3.index t (2 : Fin 3) * 8192 + 1 * k.val = k.val; rw [hi.2.2]; omega
  rw [e]
  show (outsAt0 m c t.val t.isLt).2.1 (ix3 u b k) = colTile m c b (qTile t.val t.isLt) k
  have hC := (inv m c t.val t.isLt).2
  unfold ColInv at hC
  rw [outCol_eq m c t h3 u b k, hC b k, h3, if_pos (by have := k.isLt; omega)]

/-- The first output's blocks are whole: [2, 512] at every point. -/
theorem rowExtent : ∀ t : Fin cfg0.N,
    win0_2.xsize (grid0.coords t) (0 : Fin 2) = 2 ∧ win0_2.xsize (grid0.coords t) (1 : Fin 2) = 512 :=
  (by decide +kernel : ∀ t : Fin grid0.N,
    win0_2.xsize (grid0.coords t) (0 : Fin 2) = 2 ∧ win0_2.xsize (grid0.coords t) (1 : Fin 2) = 512)

/-- The second output's blocks are whole: [1, 2, 8192] at every point. -/
theorem colExtent : ∀ t : Fin cfg0.N,
    win0_3.xsize (grid0.coords t) (0 : Fin 3) = 1 ∧ win0_3.xsize (grid0.coords t) (1 : Fin 3) = 2
      ∧ win0_3.xsize (grid0.coords t) (2 : Fin 3) = 8192 :=
  (by decide +kernel : ∀ t : Fin grid0.N,
    win0_3.xsize (grid0.coords t) (0 : Fin 3) = 1 ∧ win0_3.xsize (grid0.coords t) (1 : Fin 3) = 2
      ∧ win0_3.xsize (grid0.coords t) (2 : Fin 3) = 8192)

/-- Every entry (b, n) of the first output lies in the block written back at the last key tile of query tile n / 512. -/
theorem coverRows (i : S2x8192.Idx) :
    ∃ t : Fin cfg0.N, (cfg0.win 2).flush t = true ∧ i ∈ ((cfg0.win 2).blk t).view.set := by
  have hN := nPoints
  have h0 : (i 0 : ℕ) < 2 := (i 0).isLt
  have h1 : (i 1 : ℕ) < 8192 := (i 1).isLt
  have hlt : 4 * ((i 1 : ℕ) / 512) + 3 < cfg0.N := by omega
  refine ⟨⟨4 * ((i 1 : ℕ) / 512) + 3, hlt⟩, (flush0_2 _).mpr (by show (4 * ((i 1 : ℕ) / 512) + 3) % 4 = 3; omega), ?_⟩
  have hi := rowIndex ⟨4 * ((i 1 : ℕ) / 512) + 3, hlt⟩
  have hx := rowExtent ⟨4 * ((i 1 : ℕ) / 512) + 3, hlt⟩
  show i ∈ ((View.whole main_v2_0).slice (win0_2.rect ⟨4 * ((i 1 : ℕ) / 512) + 3, hlt⟩)).set
  rw [View.set_slice_whole, Rect.mem_set_unit]
  intro a
  match a with
  | ⟨0, _⟩ =>
    show win0_2.index ⟨4 * ((i 1 : ℕ) / 512) + 3, hlt⟩ (0 : Fin 2) * 2 ≤ (i 0 : ℕ)
      ∧ (i 0 : ℕ) < win0_2.index ⟨4 * ((i 1 : ℕ) / 512) + 3, hlt⟩ (0 : Fin 2) * 2
        + win0_2.xsize (grid0.coords ⟨4 * ((i 1 : ℕ) / 512) + 3, hlt⟩) (0 : Fin 2)
    rw [hi.1, hx.1]
    omega
  | ⟨1, _⟩ =>
    show win0_2.index ⟨4 * ((i 1 : ℕ) / 512) + 3, hlt⟩ (1 : Fin 2) * 512 ≤ (i 1 : ℕ)
      ∧ (i 1 : ℕ) < win0_2.index ⟨4 * ((i 1 : ℕ) / 512) + 3, hlt⟩ (1 : Fin 2) * 512
        + win0_2.xsize (grid0.coords ⟨4 * ((i 1 : ℕ) / 512) + 3, hlt⟩) (1 : Fin 2)
    rw [hi.2, hx.2]
    show (4 * ((i 1 : ℕ) / 512) + 3) / 4 * 512 ≤ (i 1 : ℕ) ∧ (i 1 : ℕ) < (4 * ((i 1 : ℕ) / 512) + 3) / 4 * 512 + 512
    omega

/-- Every entry (p, b, k) of the second output lies in the block written back at the last key tile of query tile p. -/
theorem coverCols (i : S16x2x8192.Idx) :
    ∃ t : Fin cfg0.N, (cfg0.win 3).flush t = true ∧ i ∈ ((cfg0.win 3).blk t).view.set := by
  have hN := nPoints
  have h0 : (i 0 : ℕ) < 16 := (i 0).isLt
  have h1 : (i 1 : ℕ) < 2 := (i 1).isLt
  have h2 : (i 2 : ℕ) < 8192 := (i 2).isLt
  have hlt : 4 * (i 0 : ℕ) + 3 < cfg0.N := by omega
  refine ⟨⟨4 * (i 0 : ℕ) + 3, hlt⟩, (flush0_3 _).mpr (by show (4 * (i 0 : ℕ) + 3) % 4 = 3; omega), ?_⟩
  have hi := colIndex ⟨4 * (i 0 : ℕ) + 3, hlt⟩
  have hx := colExtent ⟨4 * (i 0 : ℕ) + 3, hlt⟩
  show i ∈ ((View.whole main_v2_1).slice (win0_3.rect ⟨4 * (i 0 : ℕ) + 3, hlt⟩)).set
  rw [View.set_slice_whole, Rect.mem_set_unit]
  intro a
  match a with
  | ⟨0, _⟩ =>
    show win0_3.index ⟨4 * (i 0 : ℕ) + 3, hlt⟩ (0 : Fin 3) * 1 ≤ (i 0 : ℕ)
      ∧ (i 0 : ℕ) < win0_3.index ⟨4 * (i 0 : ℕ) + 3, hlt⟩ (0 : Fin 3) * 1
        + win0_3.xsize (grid0.coords ⟨4 * (i 0 : ℕ) + 3, hlt⟩) (0 : Fin 3)
    rw [hi.1, hx.1]
    show (4 * (i 0 : ℕ) + 3) / 4 * 1 ≤ (i 0 : ℕ) ∧ (i 0 : ℕ) < (4 * (i 0 : ℕ) + 3) / 4 * 1 + 1
    omega
  | ⟨1, _⟩ =>
    show win0_3.index ⟨4 * (i 0 : ℕ) + 3, hlt⟩ (1 : Fin 3) * 2 ≤ (i 1 : ℕ)
      ∧ (i 1 : ℕ) < win0_3.index ⟨4 * (i 0 : ℕ) + 3, hlt⟩ (1 : Fin 3) * 2
        + win0_3.xsize (grid0.coords ⟨4 * (i 0 : ℕ) + 3, hlt⟩) (1 : Fin 3)
    rw [hi.2.1, hx.2.1]
    omega
  | ⟨2, _⟩ =>
    show win0_3.index ⟨4 * (i 0 : ℕ) + 3, hlt⟩ (2 : Fin 3) * 8192 ≤ (i 2 : ℕ)
      ∧ (i 2 : ℕ) < win0_3.index ⟨4 * (i 0 : ℕ) + 3, hlt⟩ (2 : Fin 3) * 8192
        + win0_3.xsize (grid0.coords ⟨4 * (i 0 : ℕ) + 3, hlt⟩) (2 : Fin 3)
    rw [hi.2.2, hx.2.2]
    omega

/-- The first output array after the region: every query point's least squared distance to the keys. -/
theorem finalRows (c : Dev nD) : (dats m 0 c).arrAt 2 cfg0.N = rowArr m c :=
  (dats m 0 c).arrAt_eq_of_cover 2 (rowArr m c) (flushedRows m c) coverRows

/-- The second output array after the region: per query tile, every key point's least squared distance to the tile. -/
theorem finalCols (c : Dev nD) : (dats m 0 c).arrAt 3 cfg0.N = colArr m c :=
  (dats m 0 c).arrAt_eq_of_cover 3 (colArr m c) (flushedCols m c) coverCols

end Cert.KernelIdeal.Arrays

end
-- ==== Proof.Tail.lean ====
/-
  From the two output arrays to the kernel's scalar.

  After the region the host takes, over the 16 slabs of the second output, the minimum at each (b, k): the least squared
  distance from key point k to all 8192 query points, since the slabs' query tiles tile the query axis.  Then, per batch, the
  mean of the first output's row and the mean of those minima, their sum, the mean over the two batches, and the factor
  6400.  Read at the exact values this is the specification's `loss` of the two clouds.
-/
import proofs.«122902_j84043920048708_2_alg».proof.Proof.Arrays
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.Chamfer Cert.KernelIdeal.Acc Cert.KernelIdeal.Arrays

variable (m : (ℓ : Loc nD τ sig) → Buf (Elt Ideal) ℓ)

/-- The host's operations after the region, as one function of the two output arrays. -/
def tail (rows : FVec Ideal S2x8192 .f32) (cols : FVec Ideal S16x2x8192 .f32) : FVec Ideal S_ .f32 :=
  mulf
    (Host.divf
      (Host.reduceAdd
        (addf
          (Host.divf (Host.reduceAdd rows (constant (F := Ideal) S_ .f32 0x00000000#32) reducesTo_S2x8192_S2_d1 h_S_)
            (broadcastInDim S2 ![] bcast_S_S2 (constant (F := Ideal) S_ .f32 0x46000000#32)))
          (Host.divf
            (Host.reduceAdd
              (Host.reduce FloatOps.minimumf cols (constant (F := Ideal) S_ .f32 0x7F800000#32)
                reducesTo_S16x2x8192_S2x8192_d0 h_S_)
              (constant (F := Ideal) S_ .f32 0x00000000#32) reducesTo_S2x8192_S2_d1 h_S_)
            (broadcastInDim S2 ![] bcast_S_S2 (constant (F := Ideal) S_ .f32 0x46000000#32))))
        (constant (F := Ideal) S_ .f32 0x00000000#32) reducesTo_S2_S_d0 h_S_)
      (constant (F := Ideal) S_ .f32 0x40000000#32))
    (constant (F := Ideal) S_ .f32 0x45C80000#32)

/-- The kernel program's result buffer after the run is the tail of the two final arrays. -/
theorem result_eq (c : Dev nD) :
    Pipeline.afterTail₀ cfgs (dats m) 0 (V0 m) [hostOps1] c main_v13 = tail (rowArr m c) (colArr m c) := by
  have hr : Pipeline.withArrays (cfgs 0).spec c (V0 m c) (fun w => (dats m 0 c).arrAt w (cfgs 0).N)
      (Proc.devRef .tc main_v2_0) = rowArr m c :=
    (Pipeline.withArrays_arr spec0 launch0.win.arr_inj c _ _ 2).trans (finalRows m c)
  have hc : Pipeline.withArrays (cfgs 0).spec c (V0 m c) (fun w => (dats m 0 c).arrAt w (cfgs 0).N)
      (Proc.devRef .tc main_v2_1) = colArr m c :=
    (Pipeline.withArrays_arr spec0 launch0.win.arr_inj c _ _ 3).trans (finalCols m c)
  unfold Pipeline.afterTail₀
  show StableHlo.after hostOps1 _ (Proc.devRef .tc main_v13) = _
  after_results
  rw [hr, hc]
  rfl

/-- A row sum on the host: zero's word plus the sum along the row. -/
theorem rowSum_apply (y : FVec Ideal S2x8192 .f32) (b : Fin 2) :
    Host.reduceAdd y (constant (F := Ideal) S_ .f32 0x00000000#32) reducesTo_S2x8192_S2_d1 h_S_ (ix1 b)
      = w0 + ∑ n : Fin 8192, y (ix2 b n) := by
  simp only [Host.reduceAdd, Ideal.hostReduceAdd_def]
  rw [Ideal.hostReduceAdd_single reducesTo_S2x8192_S2_d1 (by decide)]
  refine congrArg (_ + ·) (Finset.sum_congr rfl fun n _ => ?_)
  exact congrArg y (funext fun a => Fin.ext (by match a with | ⟨0, _⟩ => rfl | ⟨1, _⟩ => rfl))

/-- A batch index is its one coordinate. -/
def batchEquiv : Fin 2 ≃ S2.Idx where
  toFun := ix1
  invFun := fun j => j 0
  left_inv := fun _ => rfl
  right_inv := fun j => (eq_ix1 j).symm

/-- The sum over the batch: zero's word plus the two entries. -/
theorem batchSum_apply (y : FVec Ideal S2 .f32) (i : S_.Idx) :
    Host.reduceAdd y (constant (F := Ideal) S_ .f32 0x00000000#32) reducesTo_S2_S_d0 h_S_ i
      = w0 + ∑ b : Fin 2, y (ix1 b) := by
  simp only [Host.reduceAdd, Ideal.hostReduceAdd_def]
  rw [Ideal.hostReduceAdd_total reducesTo_S2_S_d0 (fun b => b.elim0) y _ i, ← Equiv.sum_comp batchEquiv]
  rfl

/-- The minimum over the 16 slabs at (b, k). -/
theorem slabMin_apply (y : FVec Ideal S16x2x8192 .f32) (b : Fin 2) (k : Fin 8192) :
    Host.reduce (FloatOps.minimumf (F := Ideal) (φ := .f32)) y (constant (F := Ideal) S_ .f32 0x7F800000#32)
        reducesTo_S16x2x8192_S2x8192_d0 h_S_ (ix2 b k)
      = (Finset.univ : Finset (Fin 16)).fold min wInf (fun p => y (ix3 p b k)) := by
  rw [Host.reduce_eq_fold_single (FloatOps.minimumf (F := Ideal) (φ := .f32)) y _ reducesTo_S16x2x8192_S2x8192_d0
    (by decide) h_S_]
  show (Finset.univ : Finset (Fin 16)).fold min wInf _ = _
  congr 1
  funext p
  show y _ = y (ix3 p b k)
  congr 1
  funext ax
  apply Fin.ext
  match ax with
  | ⟨0, _⟩ => rfl
  | ⟨1, _⟩ => rfl
  | ⟨2, _⟩ => rfl

/-- A scalar word broadcast to the batch: that word at each entry. -/
theorem bcast_apply (w : BitVec 32) (j : S2.Idx) :
    broadcastInDim S2 ![] bcast_S_S2 (constant (F := Ideal) S_ .f32 w) j = Ideal.ofBits .f32 w :=
  broadcastInDim_apply _ bcast_S_S2 (constant (F := Ideal) S_ .f32 w) j (fun a => a.elim0) (fun a => a.elim0)

/-- The tail at its one index: the batch mean of the two directions' means, times the word of 6400. -/
theorem tail_apply (rows : FVec Ideal S2x8192 .f32) (cols : FVec Ideal S16x2x8192 .f32) (i : S_.Idx) :
    tail rows cols i
      = Ideal.div (w0 + ∑ b : Fin 2,
          (Ideal.div (w0 + ∑ n : Fin 8192, rows (ix2 b n)) w8192
            + Ideal.div (w0 + ∑ k : Fin 8192, (Finset.univ : Finset (Fin 16)).fold min wInf (fun p => cols (ix3 p b k))) w8192)) w2
        * w6400 := by
  unfold tail
  show Ideal.div (Host.reduceAdd (F := Ideal) _ _ reducesTo_S2_S_d0 h_S_ i) w2 * w6400 = _
  rw [batchSum_apply]
  have e : ∀ b : Fin 2,
      addf
          (Host.divf (Host.reduceAdd rows (constant (F := Ideal) S_ .f32 0x00000000#32) reducesTo_S2x8192_S2_d1 h_S_)
            (broadcastInDim S2 ![] bcast_S_S2 (constant (F := Ideal) S_ .f32 0x46000000#32)))
          (Host.divf
            (Host.reduceAdd
              (Host.reduce FloatOps.minimumf cols (constant (F := Ideal) S_ .f32 0x7F800000#32)
                reducesTo_S16x2x8192_S2x8192_d0 h_S_)
              (constant (F := Ideal) S_ .f32 0x00000000#32) reducesTo_S2x8192_S2_d1 h_S_)
            (broadcastInDim S2 ![] bcast_S_S2 (constant (F := Ideal) S_ .f32 0x46000000#32))) (ix1 b)
        = Ideal.div (w0 + ∑ n : Fin 8192, rows (ix2 b n)) w8192
          + Ideal.div (w0 + ∑ k : Fin 8192, (Finset.univ : Finset (Fin 16)).fold min wInf (fun p => cols (ix3 p b k))) w8192 := fun b => by
    show Ideal.div (Host.reduceAdd (F := Ideal) rows _ reducesTo_S2x8192_S2_d1 h_S_ (ix1 b))
          (broadcastInDim S2 ![] bcast_S_S2 (constant (F := Ideal) S_ .f32 0x46000000#32) (ix1 b))
        + Ideal.div (Host.reduceAdd (F := Ideal) _ _ reducesTo_S2x8192_S2_d1 h_S_ (ix1 b))
          (broadcastInDim S2 ![] bcast_S_S2 (constant (F := Ideal) S_ .f32 0x46000000#32) (ix1 b)) = _
    rw [rowSum_apply, rowSum_apply, bcast_apply]
    simp only [slabMin_apply]
  simp only [e]

/-- THE KERNEL'S VALUE: the tail of the two final arrays is the specification's `loss` of the two clouds. -/
theorem tail_final (c : Dev nD) (i : S_.Idx) :
    tail (rowArr m c) (colArr m c) i = loss (qs m c) (ks m c) := by
  rw [tail_apply]
  unfold loss
  have e : ∀ (b : Fin 2) (k : Fin 8192),
      (Finset.univ : Finset (Fin 16)).fold min wInf (fun p => colArr m c (ix3 p b k)) = colMin (qs m c) (ks m c) b k :=
    fun b k => fold_queryTiles wInf (fun n => Cert.Chamfer.dist (qs m c) (ks m c) b n k)
  simp only [e]
  rfl

/-- THE KERNEL PROGRAM'S RUN: every weakly fair execution terminates with the result buffer at the specification's `loss`
    of the two clouds as launched, and the clouds unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v13) = (fun _ => loss (qs m c) (ks m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans
        ((result_eq m c).trans (funext fun i => tail_final m c i)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefValue.lean ====
/-
  The reference's scalar as a closed formula of the two point clouds.

  The reference scales both clouds [2, 8192, 3] by 80, forms for every batch b, query point n and key point k the
  expansion |x|² + |y|² − 2 x·y of the squared distance between the scaled points, clamped below at zero, takes the
  minimum of that [2, 8192, 8192] array over the key axis and over the query axis, averages each family of 8192 minima,
  adds the two averages and averages over the two batches.  Read at the exact (extended-real) values, stage by stage:
  a scaled entry is the entry times the word of 80 (`v1_at`, `v3_at`); a squared norm is zero's word plus the sum of
  three squares (`v5_at`, `v7_at`); the inner product is the sum of three products (`v8_at`); the clamped expansion
  is the specification's `refDist` (`v18_at`); a minimum-reduce over one axis from the word of +∞ is the fold of `min`
  over that axis's 8192 coordinates (`minOverKeys`, `minOverQueries`, hence `v19_at`, `v20_at`); a mean is zero's word
  plus the sum, divided by the word of 8192 (`v23_at`, `v26_at`); and the final scalar is the specification's
  `refLoss` (`ref_value`).  No float literal is evaluated: each word stays the word it is.
-/
import proofs.«122902_j84043920048708_2_alg».proof.Proof.Gen.ReferenceIdeal.Read
import proofs.«122902_j84043920048708_2_alg».proof.Proof.Spec

noncomputable section

namespace Cert.Chamfer.Ref

open Cert.ReferenceIdeal Cert.ReferenceIdeal.Gen Cert.ReferenceIdeal.Read
open Idealize.ShloMosaic Idealize.ShloMosaic.ValueIdx Idealize.ShloMosaic.StableHlo

/-- The first cloud scaled: entry (b, n, d) times the word of 80. -/
theorem v1_at (a : Cloud) (b : Fin 2) (n : Fin 8192) (d : Fin 3) :
    val_main_v1 (F := Ideal) a (ix3 b n d) = a (ix3 b n d) * w80 := by
  rw [val_main_v1_apply, val_main_v0_apply, val_main_cst_apply]
  rfl

/-- The second cloud scaled. -/
theorem v3_at (g : Cloud) (b : Fin 2) (k : Fin 8192) (d : Fin 3) :
    val_main_v3 (F := Ideal) g (ix3 b k d) = g (ix3 b k d) * w80 := by
  rw [val_main_v3_apply, val_main_v2_apply, val_main_cst_0_apply]
  rfl

/-- The squared norm of scaled query point (b, n): zero's word plus the three squares. -/
theorem v5_at (a : Cloud) (b : Fin 2) (n : Fin 8192) :
    val_main_v5 (F := Ideal) a (ix2 b n)
      = w0 + ∑ d : Fin 3, (a (ix3 b n d) * w80) * (a (ix3 b n d) * w80) := by
  rw [val_main_v5_apply, val_main_cst_1_apply]
  refine congrArg (_ + ·) (Finset.sum_congr rfl fun d _ => ?_)
  have e : idx_main_v5 (ix2 b n) d = ix3 b n d :=
    funext fun ax => Fin.ext (by match ax with | ⟨0, _⟩ => rfl | ⟨1, _⟩ => rfl | ⟨2, _⟩ => rfl)
  rw [e, val_main_v4_apply, v1_at]
  rfl

/-- The squared norm of scaled key point (b, k). -/
theorem v7_at (g : Cloud) (b : Fin 2) (k : Fin 8192) :
    val_main_v7 (F := Ideal) g (ix2 b k)
      = w0 + ∑ d : Fin 3, (g (ix3 b k d) * w80) * (g (ix3 b k d) * w80) := by
  rw [val_main_v7_apply, val_main_cst_2_apply]
  refine congrArg (_ + ·) (Finset.sum_congr rfl fun d _ => ?_)
  have e : idx_main_v7 (ix2 b k) d = ix3 b k d :=
    funext fun ax => Fin.ext (by match ax with | ⟨0, _⟩ => rfl | ⟨1, _⟩ => rfl | ⟨2, _⟩ => rfl)
  rw [e, val_main_v6_apply, v3_at]
  rfl

/-- The inner product of scaled query point (b, n) with scaled key point (b, k). -/
theorem v8_at (a g : Cloud) (b : Fin 2) (n k : Fin 8192) :
    val_main_v8 (F := Ideal) a g (ix3 b n k)
      = ∑ d : Fin 3, (a (ix3 b n d) * w80) * (g (ix3 b k d) * w80) := by
  rw [val_main_v8_apply]
  refine Finset.sum_congr rfl fun d _ => ?_
  have el : lidx_main_v8 (ix3 b n k) d = ix3 b n d :=
    funext fun ax => Fin.ext (by match ax with | ⟨0, _⟩ => rfl | ⟨1, _⟩ => rfl | ⟨2, _⟩ => rfl)
  have er : ridx_main_v8 (ix3 b n k) d = ix3 b k d :=
    funext fun ax => Fin.ext (by match ax with | ⟨0, _⟩ => rfl | ⟨1, _⟩ => rfl | ⟨2, _⟩ => rfl)
  rw [el, er, v1_at, v3_at]

/-- The clamped expansion at (b, n, k) is the specification's squared distance of the scaled clouds. -/
theorem v18_at (a g : Cloud) (b : Fin 2) (n k : Fin 8192) :
    val_main_v18 (F := Ideal) a g (ix3 b n k) = refDist a g b n k := by
  have e5 : idx_main_v9 (idx_main_v11 (ix3 b n k)) = ix2 b n :=
    funext fun ax => Fin.ext (by match ax with | ⟨0, _⟩ => rfl | ⟨1, _⟩ => rfl)
  have e7 : idx_main_v10 (idx_main_v12 (ix3 b n k)) = ix2 b k :=
    funext fun ax => Fin.ext (by match ax with | ⟨0, _⟩ => rfl | ⟨1, _⟩ => rfl)
  rw [val_main_v18_apply, val_main_v16_apply, val_main_v13_apply, val_main_v11_apply, val_main_v9_apply,
    val_main_v12_apply, val_main_v10_apply, val_main_v15_apply, val_main_v14_apply, val_main_cst_3_apply,
    val_main_v17_apply, val_main_cst_4_apply, e5, e7, v5_at, v7_at, v8_at]
  rfl

/-- A minimum-reduce over the LAST axis of a [2, 8192, 8192] array from the word of +∞: at (b, n), the fold of `min`
    over the key coordinate. -/
theorem minOverKeys (y : (⟨S2x8192x8192, .f32⟩ : BufTy).Contents (Elt Ideal)) (b : Fin 2) (n : Fin 8192) :
    Host.reduce (FloatOps.minimumf (F := Ideal) (φ := .f32)) y (val_main_cst_5 (F := Ideal)) reducesTo_S2x8192x8192_S2x8192_d2 h_S_ (ix2 b n)
      = (Finset.univ : Finset (Fin 8192)).fold min wInf (fun k => y (ix3 b n k)) := by
  rw [Host.reduce_eq_fold_single (FloatOps.minimumf (F := Ideal) (φ := .f32)) y _ reducesTo_S2x8192x8192_S2x8192_d2 (by decide) h_S_]
  show (Finset.univ : Finset (Fin 8192)).fold min wInf _ = _
  congr 1
  funext k
  show y _ = y (ix3 b n k)
  congr 1
  funext ax
  apply Fin.ext
  match ax with
  | ⟨0, _⟩ => rfl
  | ⟨1, _⟩ => rfl
  | ⟨2, _⟩ => rfl

/-- A minimum-reduce over the MIDDLE axis: at (b, k), the fold of `min` over the query coordinate. -/
theorem minOverQueries (y : (⟨S2x8192x8192, .f32⟩ : BufTy).Contents (Elt Ideal)) (b : Fin 2) (k : Fin 8192) :
    Host.reduce (FloatOps.minimumf (F := Ideal) (φ := .f32)) y (val_main_cst_6 (F := Ideal)) reducesTo_S2x8192x8192_S2x8192_d1 h_S_ (ix2 b k)
      = (Finset.univ : Finset (Fin 8192)).fold min wInf (fun n => y (ix3 b n k)) := by
  rw [Host.reduce_eq_fold_single (FloatOps.minimumf (F := Ideal) (φ := .f32)) y _ reducesTo_S2x8192x8192_S2x8192_d1 (by decide) h_S_]
  show (Finset.univ : Finset (Fin 8192)).fold min wInf _ = _
  congr 1
  funext n
  show y _ = y (ix3 b n k)
  congr 1
  funext ax
  apply Fin.ext
  match ax with
  | ⟨0, _⟩ => rfl
  | ⟨1, _⟩ => rfl
  | ⟨2, _⟩ => rfl

/-- The least clamped distance from query point (b, n) to the key points. -/
theorem v19_at (a g : Cloud) (b : Fin 2) (n : Fin 8192) :
    val_main_v19 (F := Ideal) a g (ix2 b n)
      = (Finset.univ : Finset (Fin 8192)).fold min wInf (fun k => refDist a g b n k) := by
  unfold val_main_v19
  rw [minOverKeys]
  exact congrArg (fun f => (Finset.univ : Finset (Fin 8192)).fold min wInf f) (funext fun k => v18_at a g b n k)

/-- The least clamped distance from key point (b, k) to the query points. -/
theorem v20_at (a g : Cloud) (b : Fin 2) (k : Fin 8192) :
    val_main_v20 (F := Ideal) a g (ix2 b k)
      = (Finset.univ : Finset (Fin 8192)).fold min wInf (fun n => refDist a g b n k) := by
  unfold val_main_v20
  rw [minOverQueries]
  exact congrArg (fun f => (Finset.univ : Finset (Fin 8192)).fold min wInf f) (funext fun n => v18_at a g b n k)

/-- The mean over the query points of batch b of their least distances. -/
theorem v23_at (a g : Cloud) (b : Fin 2) :
    val_main_v23 (F := Ideal) a g (ix1 b)
      = Ideal.div (w0 + ∑ n : Fin 8192, (Finset.univ : Finset (Fin 8192)).fold min wInf (fun k => refDist a g b n k)) w8192 := by
  have e : ∀ n : Fin 8192, idx_main_v21 (ix1 b) n = ix2 b n := fun n =>
    funext fun ax => Fin.ext (by match ax with | ⟨0, _⟩ => rfl | ⟨1, _⟩ => rfl)
  rw [val_main_v23_apply, val_main_v21_apply, val_main_cst_7_apply, val_main_v22_apply, val_main_cst_8_apply]
  simp only [e, v19_at]
  rfl

/-- The mean over the key points of batch b of their least distances. -/
theorem v26_at (a g : Cloud) (b : Fin 2) :
    val_main_v26 (F := Ideal) a g (ix1 b)
      = Ideal.div (w0 + ∑ k : Fin 8192, (Finset.univ : Finset (Fin 8192)).fold min wInf (fun n => refDist a g b n k)) w8192 := by
  have e : ∀ k : Fin 8192, idx_main_v24 (ix1 b) k = ix2 b k := fun k =>
    funext fun ax => Fin.ext (by match ax with | ⟨0, _⟩ => rfl | ⟨1, _⟩ => rfl)
  rw [val_main_v26_apply, val_main_v24_apply, val_main_cst_9_apply, val_main_v25_apply, val_main_cst_10_apply]
  simp only [e, v20_at]
  rfl

/-- A batch index is its one coordinate. -/
def batchEquiv : Fin 2 ≃ S2.Idx where
  toFun := ix1
  invFun := fun j => j 0
  left_inv := fun _ => rfl
  right_inv := fun j => (eq_ix1 j).symm

/-- The reference's scalar is the specification's: the batch mean of the two directions' means. -/
theorem ref_value (a g : Cloud) (i : S_.Idx) : val_main_v29 (F := Ideal) a g i = refLoss a g := by
  rw [val_main_v29_apply, val_main_v28_apply, val_main_cst_11_apply, val_main_cst_12_apply,
    ← Equiv.sum_comp batchEquiv]
  have e : ∀ b : Fin 2, val_main_v27 (F := Ideal) a g (batchEquiv b)
      = Ideal.div (w0 + ∑ n : Fin 8192, (Finset.univ : Finset (Fin 8192)).fold min wInf (fun k => refDist a g b n k)) w8192
        + Ideal.div (w0 + ∑ k : Fin 8192, (Finset.univ : Finset (Fin 8192)).fold min wInf (fun n => refDist a g b n k)) w8192 := fun b => by
    show val_main_v27 (F := Ideal) a g (ix1 b) = _
    rw [val_main_v27_apply, v23_at, v26_at]
    rfl
  simp only [e]
  rfl

end Cert.Chamfer.Ref

end
-- ==== Proof.Algebra.lean ====
/-
  Over finite inputs the reference's scalar is the kernel's.

  The reference works on the clouds scaled by 80 and expands the square:
  |80x|² + |80y|² − 2 (80x)·(80y) = 6400 |x − y|², which is non-negative, so the clamp at zero does nothing.
  The expansion is an identity of real numbers; it is the one place where the entries must be finite.
  From there the factor 6400 travels outward, and each step is a law of the extended reals that holds for a
  positive real factor whatever the other operand: it commutes with `min` (multiplication by it is monotone and
  fixes `+∞`), it distributes over a sum, and it commutes with multiplication by a reciprocal.
-/
import proofs.«122902_j84043920048708_2_alg».proof.Proof.Spec

noncomputable section

namespace Cert.Chamfer

open Idealize.ShloMosaic Idealize.ShloMosaic.ValueIdx

/-! ### The literal words as extended reals -/

theorem w0_eq : w0 = 0 := by simp [Ideal.ofBits, Ideal.ieee]
theorem wInf_eq : wInf = ⊤ := by simp [Ideal.ofBits, Ideal.ieee]
theorem w2_eq : w2 = ((2 : ℝ) : EReal) := by simp [Ideal.ofBits, Ideal.ieee, -EReal.coe_mul]; norm_num
theorem w80_eq : w80 = ((80 : ℝ) : EReal) := by simp [Ideal.ofBits, Ideal.ieee, -EReal.coe_mul]; norm_num
theorem w8192_eq : w8192 = ((8192 : ℝ) : EReal) := by simp [Ideal.ofBits, Ideal.ieee, -EReal.coe_mul]; norm_num
theorem w6400_eq : w6400 = ((6400 : ℝ) : EReal) := by simp [Ideal.ofBits, Ideal.ieee, -EReal.coe_mul]; norm_num

/-! ### A positive real factor on the extended reals -/

/-- Multiplication by a non-negative real commutes with `min`: it is monotone. -/
theorem coe_mul_min {c : ℝ} (hc : 0 ≤ c) (x y : EReal) :
    (c : EReal) * min x y = min ((c : EReal) * x) ((c : EReal) * y) :=
  Monotone.map_min (fun _ _ h => mul_le_mul_of_nonneg_left h (EReal.coe_nonneg.2 hc))

/-- A positive real factor commutes with the least of finitely many extended reals, the fold of `min` from `+∞`. -/
theorem fold_min_coe_mul {ι : Type} {c : ℝ} (hc : 0 < c) (s : Finset ι) (f : ι → EReal) :
    (s.fold min wInf fun k => (c : EReal) * f k) = (c : EReal) * s.fold min wInf f := by
  have h := Finset.fold_hom (op := min) (op' := min) (m := fun x : EReal => (c : EReal) * x) (b := ⊤) (s := s) (f := f)
    (coe_mul_min hc.le)
  rw [wInf_eq]
  simpa only [EReal.coe_mul_top_of_pos hc] using h

/-- A non-negative real factor distributes over a finite sum of extended reals, whatever their signs. -/
theorem sum_coe_mul {ι : Type} {c : ℝ} (hc : 0 ≤ c) (s : Finset ι) (f : ι → EReal) :
    (∑ i ∈ s, (c : EReal) * f i) = (c : EReal) * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.2 hc) (EReal.coe_ne_top c)]

/-! ### The expansion of the square -/

/-- The reference's clamped expansion at real entries is 6400 times the squared distance. -/
theorem refDist_eq (a g : Cloud) (ha : ∀ i, ∃ r : ℝ, a i = (r : EReal)) (hg : ∀ i, ∃ r : ℝ, g i = (r : EReal))
    (b : Fin 2) (n k : Fin 8192) :
    refDist a g b n k = ((6400 : ℝ) : EReal) * dist a g b n k := by
  obtain ⟨x0, hx0⟩ := ha (ix3 b n 0)
  obtain ⟨x1, hx1⟩ := ha (ix3 b n 1)
  obtain ⟨x2, hx2⟩ := ha (ix3 b n 2)
  obtain ⟨y0, hy0⟩ := hg (ix3 b k 0)
  obtain ⟨y1, hy1⟩ := hg (ix3 b k 1)
  obtain ⟨y2, hy2⟩ := hg (ix3 b k 2)
  unfold refDist dist
  rw [Fin.sum_univ_three, Fin.sum_univ_three, Fin.sum_univ_three, hx0, hx1, hx2, hy0, hy1, hy2, w0_eq, w2_eq, w80_eq]
  have hsq : (0 : ℝ) ≤ 6400 * ((x0 - y0) * (x0 - y0) + (x1 - y1) * (x1 - y1) + (x2 - y2) * (x2 - y2)) :=
    mul_nonneg (by norm_num)
      (add_nonneg (add_nonneg (mul_self_nonneg _) (mul_self_nonneg _)) (mul_self_nonneg _))
  have hexp : (x0 * 80 * (x0 * 80) + x1 * 80 * (x1 * 80) + x2 * 80 * (x2 * 80)
        + (y0 * 80 * (y0 * 80) + y1 * 80 * (y1 * 80) + y2 * 80 * (y2 * 80))
        - 2 * (x0 * 80 * (y0 * 80) + x1 * 80 * (y1 * 80) + x2 * 80 * (y2 * 80)) : ℝ)
      = 6400 * ((x0 - y0) * (x0 - y0) + (x1 - y1) * (x1 - y1) + (x2 - y2) * (x2 - y2)) := by ring
  rw [zero_add, zero_add]
  simp only [← EReal.coe_mul, ← EReal.coe_add, ← EReal.coe_sub]
  rw [hexp, max_eq_left (EReal.coe_nonneg.2 hsq)]

/-- The reference's least expanded distance from a query point is 6400 times the kernel's. -/
theorem refRowMin_eq (a g : Cloud) (ha : ∀ i, ∃ r : ℝ, a i = (r : EReal)) (hg : ∀ i, ∃ r : ℝ, g i = (r : EReal))
    (b : Fin 2) (n : Fin 8192) :
    ((Finset.univ : Finset (Fin 8192)).fold min wInf fun k => refDist a g b n k)
      = ((6400 : ℝ) : EReal) * rowMin a g b n := by
  simp only [refDist_eq a g ha hg]
  exact fold_min_coe_mul (by norm_num) _ _

/-- The reference's least expanded distance from a key point is 6400 times the kernel's. -/
theorem refColMin_eq (a g : Cloud) (ha : ∀ i, ∃ r : ℝ, a i = (r : EReal)) (hg : ∀ i, ∃ r : ℝ, g i = (r : EReal))
    (b : Fin 2) (k : Fin 8192) :
    ((Finset.univ : Finset (Fin 8192)).fold min wInf fun n => refDist a g b n k)
      = ((6400 : ℝ) : EReal) * colMin a g b k := by
  simp only [refDist_eq a g ha hg]
  exact fold_min_coe_mul (by norm_num) _ _

/-! ### The factor travels to the end -/

/-- A non-negative real factor leaves a sum of two scaled terms. -/
theorem coe_mul_pair {c : ℝ} (hc : 0 ≤ c) (r s u : EReal) :
    (c : EReal) * r * u + (c : EReal) * s * u = (c : EReal) * (r * u + s * u) := by
  rw [EReal.left_distrib_of_nonneg_of_ne_top (EReal.coe_nonneg.2 hc) (EReal.coe_ne_top c), mul_assoc, mul_assoc]

/-- Over finite inputs the reference's scalar is the kernel's. -/
theorem refLoss_eq_loss (a g : Cloud)
    (ha : ∀ i, ∃ r : ℝ, a i = (r : EReal)) (hg : ∀ i, ∃ r : ℝ, g i = (r : EReal)) :
    refLoss a g = loss a g := by
  have h64 : (0 : ℝ) ≤ 6400 := by norm_num
  have h8192 : (8192 : ℝ) ≠ 0 := by norm_num
  have h2 : (2 : ℝ) ≠ 0 := by norm_num
  unfold refLoss loss
  simp only [refRowMin_eq a g ha hg, refColMin_eq a g ha hg, sum_coe_mul h64, w0_eq, zero_add, w8192_eq, w2_eq, w6400_eq,
    Ideal.div_coe h8192, Ideal.div_coe h2, coe_mul_pair h64]
  rw [mul_comm ((6400 : ℝ) : EReal), mul_right_comm]

end Cert.Chamfer

end
-- ==== Proof.Finite.lean ====
/-
  The precondition says every entry of both clouds is finite, and a finite extended real is a real.

  The generated predicate is the conjunction, over the two clouds, of "every entry x has |x| < +∞", each a
  reduction by `and` over all entries from the constant 1. The conjunction being 1 gives each reduction 1, a reduction
  by `and` that is 1 met only 1s, and |x| = max x (−x) below +∞ rules out both infinities: at +∞ the maximum is +∞,
  and at −∞ it is −(−∞) = +∞ too.
-/
import proofs.«122902_j84043920048708_2_alg».proof.Pre_finite_inputs
import proofs.«122902_j84043920048708_2_alg».proof.Proof.Gen.Pre_finite_inputs
import proofs.«122902_j84043920048708_2_alg».proof.Proof.Spec
import Idealize.ShloMosaic.Lib.ReduceAll
import Idealize.ShloMosaic.PureOps.Ideal.Laws
import Idealize.ShloMosaic.Lib.ValueIdx

noncomputable section

namespace Cert.Chamfer

open Idealize.ShloMosaic Idealize.ShloMosaic.ValueIdx

/-- An extended real whose absolute value compares below the word of `+∞` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The scalar shape has one index. -/
instance scalarIdx_subsingleton : Subsingleton Cert.Pre_finite_inputs.S_.Idx := ⟨fun a b => funext fun d => d.elim0⟩

/-- The generated precondition makes every entry of both clouds a real. -/
theorem finite_of_pre [Cert.Pre_finite_inputs.Facts] (a g : Cloud)
    (h : Cert.Pre_finite_inputs.fn (F := Ideal) a g = (fun _ => 1#1)) :
    (∀ i, ∃ r : ℝ, a i = (r : EReal)) ∧ (∀ i, ∃ r : ℝ, g i = (r : EReal)) := by
  have e := congrFun h ix0
  dsimp only [Cert.Pre_finite_inputs.fn] at e
  obtain ⟨e1, e2⟩ := IntOp.andi_eq_one.1 e
  exact ⟨fun i => real_of_abs_lt_inf (a i) (Host.reduce_andi_all _ _ _ _ ix0 e1 i),
    fun i => real_of_abs_lt_inf (g i) (Host.reduce_andi_all _ _ _ _ ix0 e2 i)⟩

end Cert.Chamfer

end
-- ==== Proof.lean ====
/-
  Squared-distance chamfer loss between two point clouds [2, 8192, 3]: the fused tiled kernel against the plain reference.

  Both programs return one scalar.  At the exact (extended-real) values the kernel computes, for every batch b, the least
  squared distance from each query point to the key points and from each key point to the query points — each squared
  distance the sum of the three squared coordinate differences —, the mean of each family of 8192 minima, their sum, the
  mean over the two batches, and the factor 6400 last.  Its row minima are accumulated over four key tiles of 2048 and its
  column minima merged over sixteen query tiles of 512; a minimum taken tile by tile is the minimum (the universal property
  of a fold of `min`), so the kernel's scalar is `Chamfer.loss` of the two clouds (Proof/Found, Payload, Blocks, Acc, Arrays,
  Tail).  The reference scales both clouds by 80 and takes |x|² + |y|² − 2 x·y clamped at zero for the squared distance: its
  scalar is `Chamfer.refLoss` (Proof/RefValue).  On FINITE clouds the expansion equals 6400 times the sum of squared
  differences, which is non-negative, so the clamp does nothing; a positive factor commutes with `min` and with the sums and
  the divisions, so the two scalars agree (Proof/Algebra).  Finiteness is what the precondition states (Proof/Finite), and
  it is used in the expansion of the square only.

  The three frames are the generated ones (the reference's is its generated run with the result dropped); the idealization
  rewrote nothing, so `preserves` is `True`.
-/
import proofs.«122902_j84043920048708_2_alg».proof.Defs
import proofs.«122902_j84043920048708_2_alg».proof.Proof.Gen.Kernel
import proofs.«122902_j84043920048708_2_alg».proof.Proof.Gen.Kernel.Skeleton
import proofs.«122902_j84043920048708_2_alg».proof.Proof.Gen.Kernel.Launch
import proofs.«122902_j84043920048708_2_alg».proof.Proof.Gen.Kernel.Points
import proofs.«122902_j84043920048708_2_alg».proof.Proof.Gen.Kernel.Frame
import proofs.«122902_j84043920048708_2_alg».proof.Proof.Gen.KernelIdeal
import proofs.«122902_j84043920048708_2_alg».proof.Proof.Gen.KernelIdeal.Skeleton
import proofs.«122902_j84043920048708_2_alg».proof.Proof.Gen.KernelIdeal.Launch
import proofs.«122902_j84043920048708_2_alg».proof.Proof.Gen.KernelIdeal.Points
import proofs.«122902_j84043920048708_2_alg».proof.Proof.Gen.KernelIdeal.Frame
import proofs.«122902_j84043920048708_2_alg».proof.Proof.Gen.ReferenceIdeal
import proofs.«122902_j84043920048708_2_alg».proof.Proof.Gen.Pre_finite_inputs
import proofs.«122902_j84043920048708_2_alg».proof.Proof.Gen.ReferenceIdeal.Run
import proofs.«122902_j84043920048708_2_alg».proof.Proof.Gen.ReferenceIdeal.Read
import proofs.«122902_j84043920048708_2_alg».proof.Proof.Tail
import proofs.«122902_j84043920048708_2_alg».proof.Proof.RefValue
import proofs.«122902_j84043920048708_2_alg».proof.Proof.Algebra
import proofs.«122902_j84043920048708_2_alg».proof.Proof.Finite
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference runs and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From clouds that agree and are finite, both programs end with the same scalar: the kernel's result is
    `Chamfer.loss` of the clouds, the reference's is `Chamfer.refLoss` of them, and on finite clouds these are equal. -/
theorem algebraic : Cert.algebraic_KernelIdeal_ReferenceIdeal := by
  intro m ρ m' ρ' hpre hagree
  refine ⟨fun c => fun _ => Cert.Chamfer.loss (Cert.KernelIdeal.Acc.qs m c) (Cert.KernelIdeal.Acc.ks m c),
    Cert.KernelIdeal.Tail.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  funext i
  rw [Cert.Chamfer.Ref.ref_value]
  obtain ⟨ha, hg⟩ := Cert.Chamfer.finite_of_pre _ _ (hpre c)
  exact Cert.Chamfer.refLoss_eq_loss _ _ ha hg

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
